-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S1000x256 .f32 .bf16
  ∧ IdealRules.truncf_extf.Statement Cert.KernelIdeal.S256x512 .f32 .bf16
  ∧ IdealRules.truncf_extf.Statement Cert.KernelIdeal.S1000x256 .f32 .bf16
  ∧ IdealRules.truncf_extf.Statement Cert.KernelIdeal.S256x512 .f32 .bf16
  ∧ IdealRules.truncf_extf.Statement Cert.KernelIdeal.S1000x512 .f32 .bf16
  ∧ IdealRules.truncf_extf.Statement Cert.KernelIdeal.S512x512 .f32 .bf16
  ∧ IdealRules.truncf_extf.Statement Cert.KernelIdeal.S1000x512 .f32 .bf16
  ∧ IdealRules.truncf_extf.Statement Cert.KernelIdeal.S512x512 .f32 .bf16
  ∧ IdealRules.truncf_extf.Statement Cert.KernelIdeal.S1000x512 .f32 .bf16
  ∧ IdealRules.truncf_extf.Statement Cert.KernelIdeal.S512x1024 .f32 .bf16
  ∧ IdealRules.truncf_extf.Statement Cert.KernelIdeal.S1000x512 .f32 .bf16
  ∧ IdealRules.truncf_extf.Statement Cert.KernelIdeal.S512x1024 .f32 .bf16
  ∧ IdealRules.truncf_extf.Statement Cert.KernelIdeal.S1000x1024 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S256x512 : Shape := ⟨2, ![256, 512]⟩
abbrev S512 : Shape := ⟨1, ![512]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_

variable [Facts]

def fn_part3 {F : FTy → Type} [FloatOps F] (main_arg12 : FVec F S512 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg8 : FVec F S512x1024 .f32) (main_arg9 : FVec F S1024 .f32) (main_arg10 : FVec F S512x1024 .f32) (main_arg11 : FVec F S1024x512 .f32) (main_arg12 : FVec F S512 .f32) (main_v33 : IVec S_ 1) : IVec S_ 1 :=
  let main_v34 : FVec F S512x1024 .f32 := Host.absf main_arg8
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S512x1024 .f32 := Host.absf main_arg10
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S1024x512 .f32 := Host.absf main_arg11
  let main_cst_18 : FVec F S_ .f32 := constant S_ .f32 0x7F800000#32
  let main_v50 : FVec F S1024x512 .f32 := broadcastInDim S1024x512 ![] bcast_S_S1024x512 main_cst_18
  fn_part3 (F := F) main_arg12 main_v48 main_v49 main_v50

def fn_part1 {F : FTy → Type} [FloatOps F] (main_arg5 : FVec F S512x512 .f32) (main_arg6 : FVec F S512 .f32) (main_arg7 : FVec F S512x512 .f32) (main_arg8 : FVec F S512x1024 .f32) (main_arg9 : FVec F S1024 .f32) (main_arg10 : FVec F S512x1024 .f32) (main_arg11 : FVec F S1024x512 .f32) (main_arg12 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S20000x256 .f32) (main_arg1 : IVec S2x320000 32) (main_arg2 : FVec F S256x512 .f32) (main_arg3 : FVec F S512 .f32) (main_arg4 : FVec F S256x512 .f32) (main_arg5 : FVec F S512x512 .f32) (main_arg6 : FVec F S512 .f32) (main_arg7 : FVec F S512x512 .f32) (main_arg8 : FVec F S512x1024 .f32) (main_arg9 : FVec F S1024 .f32) (main_arg10 : FVec F S512x1024 .f32) (main_arg11 : FVec F S1024x512 .f32) (main_arg12 : FVec F S512 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_arg6 main_arg7 main_arg8 main_arg9 main_arg10 main_arg11 main_arg12 main_v13 main_v16
-- ==== Kernel.lean ====
abbrev S20000x256 : Shape := ⟨2, ![20000, 256]⟩
abbrev S2x320000 : Shape := ⟨2, ![2, 320000]⟩
abbrev S256x512 : Shape := ⟨2, ![256, 512]⟩
abbrev S512 : Shape := ⟨1, ![512]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S1x320000 : Shape := ⟨2, ![1, 320000]⟩
abbrev S320000 : Shape := ⟨1, ![320000]⟩
abbrev S_ : Shape := ⟨0, ![]⟩
abbrev S20000 : Shape := ⟨1, ![20000]⟩
abbrev S320000x1 : Shape := ⟨2, ![320000, 1]⟩
abbrev S20000x1 : Shape := ⟨2, ![20000, 1]⟩
abbrev S320000x256 : Shape := ⟨2, ![320000, 256]⟩
abbrev S1x512 : Shape := ⟨2, ![1, 512]⟩
abbrev S20000x512 : Shape := ⟨2, ![20000, 512]⟩
abbrev S1000x256 : Shape := ⟨2, ![1000, 256]⟩
abbrev S1000x1 : Shape := ⟨2, ![1000, 1]⟩
abbrev S1000x512 : Shape := ⟨2, ![1000, 512]⟩
abbrev S320000x512 : Shape := ⟨2, ![320000, 512]⟩
abbrev S1x1024 : Shape := ⟨2, ![1, 1024]⟩
abbrev S20000x1024 : Shape := ⟨2, ![20000, 1024]⟩
abbrev S1000x1024 : Shape := ⟨2, ![1000, 1024]⟩

abbrev nBuf : Space → Nat
  | .hbm => 77
  | .vmem => 39
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x512, .f32⟩
  | .hbm, ⟨3, _⟩ => ⟨S512, .f32⟩
  | .hbm, ⟨4, _⟩ => ⟨S256x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x1024, .f32⟩
  | .hbm, ⟨9, _⟩ => ⟨S1024, .f32⟩
  | .hbm, ⟨10, _⟩ => ⟨S512x1024, .f32⟩
  | .hbm, ⟨11, _⟩ => ⟨S1024x512, .f32⟩
  | .hbm, ⟨12, _⟩ => ⟨S512, .f32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .f32⟩
  | .hbm, ⟨18, _⟩ => ⟨S320000, .f32⟩
  | .hbm, ⟨19, _⟩ => ⟨S_, .f32⟩
  | .hbm, ⟨20, _⟩ => ⟨S20000, .f32⟩
  | .hbm, ⟨21, _⟩ => ⟨S320000x1, .i32⟩
  | .hbm, ⟨22, _⟩ => ⟨S20000, .f32⟩
  | .hbm, ⟨23, _⟩ => ⟨S_, .f32⟩
  | .hbm, ⟨24, _⟩ => ⟨S20000, .f32⟩
  | .hbm, ⟨25, _⟩ => ⟨S20000, .f32⟩
  | .hbm, ⟨26, _⟩ => ⟨S_, .f32⟩
  | .hbm, ⟨27, _⟩ => ⟨S20000, .f32⟩
  | .hbm, ⟨28, _⟩ => ⟨S20000, .f32⟩
  | .hbm, ⟨29, _⟩ => ⟨S20000x1, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S320000x256, .f32⟩
  | .hbm, ⟨39, _⟩ => ⟨S_, .f32⟩
  | .hbm, ⟨40, _⟩ => ⟨S20000x256, .f32⟩
  | .hbm, ⟨41, _⟩ => ⟨S320000x1, .i32⟩
  | .hbm, ⟨42, _⟩ => ⟨S20000x256, .f32⟩
  | .hbm, ⟨43, _⟩ => ⟨S1x512, .f32⟩
  | .hbm, ⟨44, _⟩ => ⟨S20000x512, .f32⟩
  | .hbm, ⟨45, _⟩ => ⟨S_, .i32⟩
  | .hbm, ⟨46, _⟩ => ⟨S320000, .i32⟩
  | .hbm, ⟨47, _⟩ => ⟨S320000, .i1⟩
  | .hbm, ⟨48, _⟩ => ⟨S_, .i32⟩
  | .hbm, ⟨49, _⟩ => ⟨S320000, .i32⟩
  | .hbm, ⟨50, _⟩ => ⟨S320000, .i32⟩
  | .hbm, ⟨51, _⟩ => ⟨S320000, .i32⟩
  | .hbm, ⟨52, _⟩ => ⟨S320000x1, .i32⟩
  | .hbm, ⟨53, _⟩ => ⟨S320000x512, .f32⟩
  | .hbm, ⟨54, _⟩ => ⟨S_, .f32⟩
  | .hbm, ⟨55, _⟩ => ⟨S20000x512, .f32⟩
  | .hbm, ⟨56, _⟩ => ⟨S320000x1, .i32⟩
  | .hbm, ⟨57, _⟩ => ⟨S20000x512, .f32⟩
  | .hbm, ⟨58, _⟩ => ⟨S1x512, .f32⟩
  | .hbm, ⟨59, _⟩ => ⟨S20000x512, .f32⟩
  | .hbm, ⟨60, _⟩ => ⟨S_, .i32⟩
  | .hbm, ⟨61, _⟩ => ⟨S320000, .i32⟩
  | .hbm, ⟨62, _⟩ => ⟨S320000, .i1⟩
  | .hbm, ⟨63, _⟩ => ⟨S_, .i32⟩
  | .hbm, ⟨64, _⟩ => ⟨S320000, .i32⟩
  | .hbm, ⟨65, _⟩ => ⟨S320000, .i32⟩
  | .hbm, ⟨66, _⟩ => ⟨S320000, .i32⟩
  | .hbm, ⟨67, _⟩ => ⟨S320000x1, .i32⟩
  | .hbm, ⟨68, _⟩ => ⟨S320000x512, .f32⟩
  | .hbm, ⟨69, _⟩ => ⟨S_, .f32⟩
  | .hbm, ⟨70, _⟩ => ⟨S20000x512, .f32⟩
  | .hbm, ⟨71, _⟩ => ⟨S320000x1, .i32⟩
  | .hbm, ⟨72, _⟩ => ⟨S20000x512, .f32⟩
  | .hbm, ⟨73, _⟩ => ⟨S1x1024, .f32⟩
  | .hbm, ⟨74, _⟩ => ⟨S20000x1024, .f32⟩
  | .hbm, ⟨75, _⟩ => ⟨S1x512, .f32⟩
  | .hbm, ⟨76, _⟩ => ⟨S20000x512, .f32⟩
  | .local _ .vmem, ⟨0, _⟩ => ⟨S1000x256, .f32⟩
  | .local _ .vmem, ⟨1, _⟩ => ⟨S1000x256, .f32⟩
  | .local _ .vmem, ⟨2, _⟩ => ⟨S1000x1, .f32⟩
  | .local _ .vmem, ⟨3, _⟩ => ⟨S1000x1, .f32⟩
  | .local _ .vmem, ⟨4, _⟩ => ⟨S1000x256, .f32⟩
  | .local _ .vmem, ⟨5, _⟩ => ⟨S1000x256, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x1, .f32⟩
  | .local _ .vmem, ⟨14, _⟩ => ⟨S1000x1, .f32⟩
  | .local _ .vmem, ⟨15, _⟩ => ⟨S1000x512, .f32⟩
  | .local _ .vmem, ⟨16, _⟩ => ⟨S1000x512, .f32⟩
  | .local _ .vmem, ⟨17, _⟩ => ⟨S512x512, .f32⟩
  | .local _ .vmem, ⟨18, _⟩ => ⟨S512x512, .f32⟩
  | .local _ .vmem, ⟨19, _⟩ => ⟨S1x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S1000x1, .f32⟩
  | .local _ .vmem, ⟨25, _⟩ => ⟨S1000x1, .f32⟩
  | .local _ .vmem, ⟨26, _⟩ => ⟨S1000x512, .f32⟩
  | .local _ .vmem, ⟨27, _⟩ => ⟨S1000x512, .f32⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | .local _ .vmem, ⟨31, _⟩ => ⟨S1000x1024, .f32⟩
  | .local _ .vmem, ⟨32, _⟩ => ⟨S1000x1024, .f32⟩
  | .local _ .vmem, ⟨33, _⟩ => ⟨S1000x1024, .f32⟩
  | .local _ .vmem, ⟨34, _⟩ => ⟨S1000x1024, .f32⟩
  | .local _ .vmem, ⟨35, _⟩ => ⟨S1024x512, .f32⟩
  | .local _ .vmem, ⟨36, _⟩ => ⟨S1x512, .f32⟩
  | .local _ .vmem, ⟨37, _⟩ => ⟨S1000x512, .f32⟩
  | .local _ .vmem, ⟨38, _⟩ => ⟨S1000x512, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem3_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  shapeCasts_S20000_S20000x1 : S20000.ShapeCasts S20000x1
  bcast_S_S20000x256 : S_.BroadcastsInDim S20000x256 (![] : Fin 0 → Fin S20000x256.rank)
  shapeCasts_S512_S1x512 : S512.ShapeCasts S1x512
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S_S20000x512 : S_.BroadcastsInDim S20000x512 (![] : Fin 0 → Fin S20000x512.rank)
  shapeCasts_S1000x512_S1000x512 : S1000x512.ShapeCasts S1000x512
  broadcasts_S1000x1_S1000x512 : S1000x1.Broadcasts S1000x512
  inb_S512x512_S512x512_0_0 : ∀ a, (![0, 0] : Fin 2 → Nat) a + S512x512.size a ≤ S512x512.size a
  h_S512x512 : 0 < S512x512.numel
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1024x512_S1024x512_0_0 : ∀ a, (![0, 0] : Fin 2 → Nat) a + S1024x512.size a ≤ S1024x512.size a
  h_S1024x512 : 0 < S1024x512.numel
  scatter_S20000_S320000x1_S320000_n_0_0_1_wf : ScatterDims.WF S20000 S320000x1 S320000 [] [0] [0] 1
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S1000x256_S256x512_S1000x512_1_0_0_1_n_n_wf : DotDims.WF S1000x256 S256x512 S1000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S1000x512_S512x512_S1000x512_1_0_0_1_n_n_wf : DotDims.WF S1000x512 S512x512 S1000x512 [1] [0] [0] [1] [] []
  dot_S1000x512_S512x1024_S1000x1024_1_0_0_1_n_n_wf : DotDims.WF S1000x512 S512x1024 S1000x1024 [1] [0] [0] [1] [] []
  dot_S1000x1024_S1024x512_S1000x512_1_0_0_1_n_n_wf : DotDims.WF S1000x1024 S1024x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S20000x256.size a
  hwx0_0 : ∀ i : grid0.Coords, EltTy.bits .f32 = 32 ∨ (Rect.block (s := S20000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S20000x1.size a
  hwx0_1 : ∀ i : grid0.Coords, EltTy.bits .f32 = 32 ∨ (Rect.block (s := S20000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S20000x256.size a
  hwx0_2 : ∀ i : grid0.Coords, EltTy.bits .f32 = 32 ∨ (Rect.block (s := S20000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x512.size a ≤ S20000x512.size a
  hwx0_6 : ∀ i : grid0.Coords, EltTy.bits .f32 = 32 ∨ (Rect.block (s := S20000x512) S1000x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S20000x1.size a
  hwx1_1 : ∀ i : grid1.Coords, EltTy.bits .f32 = 32 ∨ (Rect.block (s := S20000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S20000x512.size a
  hwx1_2 : ∀ i : grid1.Coords, EltTy.bits .f32 = 32 ∨ (Rect.block (s := S20000x512) S1000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x512.size a ≤ S20000x512.size a
  hwx1_6 : ∀ i : grid1.Coords, EltTy.bits .f32 = 32 ∨ (Rect.block (s := S20000x512) S1000x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S20000x1.size a
  hwx2_1 : ∀ i : grid2.Coords, EltTy.bits .f32 = 32 ∨ (Rect.block (s := S20000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x512.size a ≤ S20000x512.size a
  hwx2_2 : ∀ i : grid2.Coords, EltTy.bits .f32 = 32 ∨ (Rect.block (s := S20000x512) S1000x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S512x1024.size a
  hwx2_3 : ∀ i : grid2.Coords, EltTy.bits .f32 = 32 ∨ (Rect.block (s := S512x1024) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x1024.size a ≤ S512x1024.size a
  hwx2_4 : ∀ i : grid2.Coords, EltTy.bits .f32 = 32 ∨ (Rect.block (s := S512x1024) S512x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x1024.size a ≤ S20000x1024.size a
  hwx2_6 : ∀ i : grid2.Coords, EltTy.bits .f32 = 32 ∨ (Rect.block (s := S20000x1024) S1000x1024.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x1024.size a ≤ S20000x1024.size a
  hwx3_0 : ∀ i : grid3.Coords, EltTy.bits .f32 = 32 ∨ (Rect.block (s := S20000x1024) S1000x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x512.size a
  hwx3_1 : ∀ i : grid3.Coords, EltTy.bits .f32 = 32 ∨ (Rect.block (s := S1024x512) S1024x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x512.size a ≤ S20000x512.size a
  hwx3_3 : ∀ i : grid3.Coords, EltTy.bits .f32 = 32 ∨ (Rect.block (s := S20000x512) S1000x512.size (cc3_transform_3 i) (hinb3_3 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x1024_S1000x1024_1_0_0_1_n_n : DotDims S1000x512 S512x1024 S1000x1024 where
  lhsContracting := [1]
  rhsContracting := [0]
  lhsNonContracting := [0]
  rhsNonContracting := [1]
  lhsBatch := []
  rhsBatch := []
  wf := dot_S1000x512_S512x1024_S1000x1024_1_0_0_1_n_n_wf
def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf

abbrev win0_0 : Pipeline.Window sig grid0 :=
  Pipeline.Window.ofSpec (Memref.whole main_v22) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1000x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1000x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S512x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S512x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S1000x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48) S1000x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S1024x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S256x512 : Shape := ⟨2, ![256, 512]⟩
abbrev S512 : Shape := ⟨1, ![512]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S20000x512 : Shape := ⟨2, ![20000, 512]⟩
abbrev S1x512 : Shape := ⟨2, ![1, 512]⟩
abbrev S320000x512 : Shape := ⟨2, ![320000, 512]⟩
abbrev S20000x1024 : Shape := ⟨2, ![20000, 1024]⟩
abbrev S1x1024 : Shape := ⟨2, ![1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x512, .f32⟩
  | .hbm, ⟨3, _⟩ => ⟨S512, .f32⟩
  | .hbm, ⟨4, _⟩ => ⟨S256x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x1024, .f32⟩
  | .hbm, ⟨9, _⟩ => ⟨S1024, .f32⟩
  | .hbm, ⟨10, _⟩ => ⟨S512x1024, .f32⟩
  | .hbm, ⟨11, _⟩ => ⟨S1024x512, .f32⟩
  | .hbm, ⟨12, _⟩ => ⟨S512, .f32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x256, .f32⟩
  | .hbm, ⟨26, _⟩ => ⟨S_, .f32⟩
  | .hbm, ⟨27, _⟩ => ⟨S20000x256, .f32⟩
  | .hbm, ⟨28, _⟩ => ⟨S320000x1, .i32⟩
  | .hbm, ⟨29, _⟩ => ⟨S20000x256, .f32⟩
  | .hbm, ⟨30, _⟩ => ⟨S_, .f32⟩
  | .hbm, ⟨31, _⟩ => ⟨S320000, .f32⟩
  | .hbm, ⟨32, _⟩ => ⟨S_, .f32⟩
  | .hbm, ⟨33, _⟩ => ⟨S20000, .f32⟩
  | .hbm, ⟨34, _⟩ => ⟨S320000x1, .i32⟩
  | .hbm, ⟨35, _⟩ => ⟨S20000, .f32⟩
  | .hbm, ⟨36, _⟩ => ⟨S_, .f32⟩
  | .hbm, ⟨37, _⟩ => ⟨S20000, .f32⟩
  | .hbm, ⟨38, _⟩ => ⟨S20000, .f32⟩
  | .hbm, ⟨39, _⟩ => ⟨S20000x1, .f32⟩
  | .hbm, ⟨40, _⟩ => ⟨S20000x256, .f32⟩
  | .hbm, ⟨41, _⟩ => ⟨S20000x256, .f32⟩
  | .hbm, ⟨42, _⟩ => ⟨S20000x512, .f32⟩
  | .hbm, ⟨43, _⟩ => ⟨S1x512, .f32⟩
  | .hbm, ⟨44, _⟩ => ⟨S20000x512, .f32⟩
  | .hbm, ⟨45, _⟩ => ⟨S20000x512, .f32⟩
  | .hbm, ⟨46, _⟩ => ⟨S20000x512, .f32⟩
  | .hbm, ⟨47, _⟩ => ⟨S20000x512, .f32⟩
  | .hbm, ⟨48, _⟩ => ⟨S_, .f32⟩
  | .hbm, ⟨49, _⟩ => ⟨S20000x512, .f32⟩
  | .hbm, ⟨50, _⟩ => ⟨S20000x512, .f32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000x512, .f32⟩
  | .hbm, ⟨60, _⟩ => ⟨S_, .f32⟩
  | .hbm, ⟨61, _⟩ => ⟨S20000x512, .f32⟩
  | .hbm, ⟨62, _⟩ => ⟨S320000x1, .i32⟩
  | .hbm, ⟨63, _⟩ => ⟨S20000x512, .f32⟩
  | .hbm, ⟨64, _⟩ => ⟨S_, .f32⟩
  | .hbm, ⟨65, _⟩ => ⟨S320000, .f32⟩
  | .hbm, ⟨66, _⟩ => ⟨S_, .f32⟩
  | .hbm, ⟨67, _⟩ => ⟨S20000, .f32⟩
  | .hbm, ⟨68, _⟩ => ⟨S320000x1, .i32⟩
  | .hbm, ⟨69, _⟩ => ⟨S20000, .f32⟩
  | .hbm, ⟨70, _⟩ => ⟨S_, .f32⟩
  | .hbm, ⟨71, _⟩ => ⟨S20000, .f32⟩
  | .hbm, ⟨72, _⟩ => ⟨S20000, .f32⟩
  | .hbm, ⟨73, _⟩ => ⟨S20000x1, .f32⟩
  | .hbm, ⟨74, _⟩ => ⟨S20000x512, .f32⟩
  | .hbm, ⟨75, _⟩ => ⟨S20000x512, .f32⟩
  | .hbm, ⟨76, _⟩ => ⟨S20000x512, .f32⟩
  | .hbm, ⟨77, _⟩ => ⟨S1x512, .f32⟩
  | .hbm, ⟨78, _⟩ => ⟨S20000x512, .f32⟩
  | .hbm, ⟨79, _⟩ => ⟨S20000x512, .f32⟩
  | .hbm, ⟨80, _⟩ => ⟨S20000x512, .f32⟩
  | .hbm, ⟨81, _⟩ => ⟨S20000x512, .f32⟩
  | .hbm, ⟨82, _⟩ => ⟨S_, .f32⟩
  | .hbm, ⟨83, _⟩ => ⟨S20000x512, .f32⟩
  | .hbm, ⟨84, _⟩ => ⟨S20000x512, .f32⟩
  | .hbm, ⟨85, _⟩ => ⟨S_, .i32⟩
  | .hbm, ⟨86, _⟩ => ⟨S320000, .i32⟩
  | .hbm, ⟨87, _⟩ => ⟨S320000, .i1⟩
  | .hbm, ⟨88, _⟩ => ⟨S_, .i32⟩
  | .hbm, ⟨89, _⟩ => ⟨S320000, .i32⟩
  | .hbm, ⟨90, _⟩ => ⟨S320000, .i32⟩
  | .hbm, ⟨91, _⟩ => ⟨S320000, .i32⟩
  | .hbm, ⟨92, _⟩ => ⟨S320000x1, .i32⟩
  | .hbm, ⟨93, _⟩ => ⟨S320000x512, .f32⟩
  | .hbm, ⟨94, _⟩ => ⟨S_, .f32⟩
  | .hbm, ⟨95, _⟩ => ⟨S20000x512, .f32⟩
  | .hbm, ⟨96, _⟩ => ⟨S320000x1, .i32⟩
  | .hbm, ⟨97, _⟩ => ⟨S20000x512, .f32⟩
  | .hbm, ⟨98, _⟩ => ⟨S_, .f32⟩
  | .hbm, ⟨99, _⟩ => ⟨S320000, .f32⟩
  | .hbm, ⟨100, _⟩ => ⟨S_, .f32⟩
  | .hbm, ⟨101, _⟩ => ⟨S20000, .f32⟩
  | .hbm, ⟨102, _⟩ => ⟨S320000x1, .i32⟩
  | .hbm, ⟨103, _⟩ => ⟨S20000, .f32⟩
  | .hbm, ⟨104, _⟩ => ⟨S_, .f32⟩
  | .hbm, ⟨105, _⟩ => ⟨S20000, .f32⟩
  | .hbm, ⟨106, _⟩ => ⟨S20000, .f32⟩
  | .hbm, ⟨107, _⟩ => ⟨S20000x1, .f32⟩
  | .hbm, ⟨108, _⟩ => ⟨S20000x512, .f32⟩
  | .hbm, ⟨109, _⟩ => ⟨S20000x512, .f32⟩
  | .hbm, ⟨110, _⟩ => ⟨S20000x1024, .f32⟩
  | .hbm, ⟨111, _⟩ => ⟨S1x1024, .f32⟩
  | .hbm, ⟨112, _⟩ => ⟨S20000x1024, .f32⟩
  | .hbm, ⟨113, _⟩ => ⟨S20000x1024, .f32⟩
  | .hbm, ⟨114, _⟩ => ⟨S20000x1024, .f32⟩
  | .hbm, ⟨115, _⟩ => ⟨S20000x1024, .f32⟩
  | .hbm, ⟨116, _⟩ => ⟨S_, .f32⟩
  | .hbm, ⟨117, _⟩ => ⟨S20000x1024, .f32⟩
  | .hbm, ⟨118, _⟩ => ⟨S20000x1024, .f32⟩
  | .hbm, ⟨119, _⟩ => ⟨S20000x512, .f32⟩
  | .hbm, ⟨120, _⟩ => ⟨S1x512, .f32⟩
  | .hbm, ⟨121, _⟩ => ⟨S20000x512, .f32⟩
  | .hbm, ⟨122, _⟩ => ⟨S20000x512, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x512_S20000x512_1_0_0_1_n_n_wf : DotDims.WF S20000x256 S256x512 S20000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x512_S20000x512_1_0_0_1_n_n_wf : DotDims.WF S20000x512 S512x512 S20000x512 [1] [0] [0] [1] [] []
  dot_S20000x512_S512x1024_S20000x1024_1_0_0_1_n_n_wf : DotDims.WF S20000x512 S512x1024 S20000x1024 [1] [0] [0] [1] [] []
  dot_S20000x1024_S1024x512_S20000x512_1_0_0_1_n_n_wf : DotDims.WF S20000x1024 S1024x512 S20000x512 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x512_S20000x512_1_0_0_1_n_n : DotDims S20000x256 S256x512 S20000x512 where
  lhsContracting := [1]
  rhsContracting := [0]
  lhsNonContracting := [0]
  rhsNonContracting := [1]
  lhsBatch := []
  rhsBatch := []
  wf := dot_S20000x256_S256x512_S20000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S20000x512_S512x1024_S20000x1024_1_0_0_1_n_n : DotDims S20000x512 S512x1024 S20000x1024 where
  lhsContracting := [1]
  rhsContracting := [0]
  lhsNonContracting := [0]
  rhsNonContracting := [1]
  lhsBatch := []
  rhsBatch := []
  wf := dot_S20000x512_S512x1024_S20000x1024_1_0_0_1_n_n_wf
def dot_S20000x1024_S1024x512_S20000x512_1_0_0_1_n_n : DotDims S20000x1024 S1024x512 S20000x512 where
  lhsContracting := [1]
  rhsContracting := [0]
  lhsNonContracting := [0]
  rhsNonContracting := [1]
  lhsBatch := []
  rhsBatch := []
  wf := dot_S20000x1024_S1024x512_S20000x512_1_0_0_1_n_n_wf

class Facts : Prop extends Facts₀ where

variable [Facts]
-- ==== Proof.KRun.lean ====
/-
  The blockwise program's run with its result named.

  The program is four block pipelines separated by stretches of whole-array operations.  Its generated run follows
  the buffers' contents from boundary to boundary; the last boundary's contents are `Gen.W8`.  Here the same run is
  stated with one more conjunct: when it ends, the result buffer holds what `Gen.W8` holds there (and every
  argument array is as launched).  What `Gen.W8` holds there, as a function of the arguments, is read in the
  modules that import this one.
-/
import proofs.«100436_j44839458570700_2_alg».proof.Proof.Patched.KernelIdealFrame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run : θ_run defs (onTc (τ := τ) (main (F := F))) ⟨m, fun _ => 0, ρ⟩ (fun r => ∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v50 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.RunValue

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.Algebra.lean ====
/-
  Extended-real facts behind one graph-convolution layer.

  A matrix product a·w is computed in three passes from a split of each factor into a leading part and a
  remainder, (a, a − a) and (w, w − w) once storage formats are read exactly: a·w + a·(w − w) + (a − a)·w.
  For finite entries the remainders vanish and the three passes collapse to the one product.  The lemmas
  here say so over any finite contraction index, together with the closure of the finite values under the
  operations a layer uses (sums, products, maxima, reciprocals: in the extended reals the reciprocal of
  either infinity is 0, so a reciprocal is always finite).
-/
import Mathlib.Data.EReal.Operations
import Mathlib.Data.EReal.Inv
import Mathlib.Algebra.BigOperators.Ring.Finset
import proofs.«100436_j44839458570700_2_alg».proof.Proof.LibRealSums

namespace Cert.Sage

open scoped BigOperators

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (Cert.ScaledSum.coe_max a b).symm⟩

theorem IsReal.sum {ι : Type*} (s : Finset ι) (f : ι → EReal) (hf : ∀ k, IsReal (f k)) : IsReal (∑ k ∈ s, f k) :=
  Cert.ScaledSum.exists_real_sum s f hf

/-- The reciprocal of any extended real is finite: 0 at both infinities. -/
theorem IsReal.inv (y : EReal) : IsReal y⁻¹ := by
  induction y using EReal.rec with
  | bot => exact ⟨0, by rw [EReal.inv_bot, EReal.coe_zero]⟩
  | coe r => exact ⟨r⁻¹, (EReal.coe_inv r).symm⟩
  | top => exact ⟨0, by rw [EReal.inv_top, EReal.coe_zero]⟩

/-- A finite value minus itself is zero. -/
theorem IsReal.sub_self {x : EReal} (hx : IsReal x) : x - x = 0 := by
  obtain ⟨a, rfl⟩ := hx
  rw [← EReal.coe_sub, _root_.sub_self, EReal.coe_zero]

/-- The three-pass product of split factors is the plain product, all entries finite. -/
theorem split_dot {κ : Type*} [Fintype κ] (a w : κ → EReal) (ha : ∀ c, IsReal (a c)) (hw : ∀ c, IsReal (w c)) :
    ((∑ c, a c * w c) + ∑ c, a c * (w c - w c)) + ∑ c, (a c - a c) * w c = ∑ c, a c * w c := by
  have h1 : (∑ c, a c * (w c - w c)) = 0 := Finset.sum_eq_zero fun c _ => by rw [(hw c).sub_self, mul_zero]
  have h2 : (∑ c, (a c - a c) * w c) = 0 := Finset.sum_eq_zero fun c _ => by rw [(ha c).sub_self, zero_mul]
  rw [h1, h2, add_zero, add_zero]

/-- A plain product of finite rows is finite. -/
theorem IsReal.dot {κ : Type*} [Fintype κ] (a w : κ → EReal) (ha : ∀ c, IsReal (a c)) (hw : ∀ c, IsReal (w c)) :
    IsReal (∑ c, a c * w c) :=
  IsReal.sum _ _ fun c => (ha c).mul (hw c)

end Cert.Sage
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.Layer.lean ====
/-
  One mean-aggregation layer, and the final linear layer, read at one output entry — for any number of
  nodes N, input width d and output width e, at the exact (extended-real) values.

  Per node r the layer takes the summed neighbour features agg(r, ·), a per-node factor, the node's own
  features h(r, ·), two d×e weight matrices and a bias row, and returns
      relu( mean(r, ·)·Wl + h(r, ·)·Wr + bias ),
  where mean = agg · (1 / c) in one program and agg / c in the other, c ≥ 1 the node's clamped in-degree.

  * The blockwise program computes every matrix product in three passes over split factors
    (Algebra.lean `split_dot`); `sagePay` / `densePay` spell its operations and `sagePay_apply` /
    `densePay_apply` read them at an entry as explicit sums.
  * The whole-array program uses one product per matrix; `rSage` / `rDense` spell it and
    `rSage_apply` / `rDense_apply` read it at an entry.
  * `entry_eq`: the two entries agree when agg, h and the weights are finite and c ≠ 0; multiplying by
    1 / c and dividing by c are the same map on every extended real once c ≠ 0, and the reciprocal is
    finite, so mean is finite and the remainders of the split vanish.  `entry_real`: the entry is finite.
-/
import Idealize.ShloMosaic.PureOps.Ideal.Laws
import Idealize.ShloMosaic.Lib.ValueIdx
import Idealize.ShloMosaic.Lib.Pipeline.Value
import proofs.«100436_j44839458570700_2_alg».proof.Proof.Algebra
import proofs.«100436_j44839458570700_2_alg».proof.Proof.LibPlainDot
import proofs.«100436_j44839458570700_2_alg».proof.Proof.LibRowVector
import proofs.«100436_j44839458570700_2_alg».proof.Proof.LibRowInDim
import proofs.«100436_j44839458570700_2_alg».proof.Proof.LibRowOfVector
import proofs.«100436_j44839458570700_2_alg».proof.Proof.LibKeepdims

noncomputable section

namespace Cert.Sage

open Idealize.ShloMosaic Idealize.ShloMosaic.ValueIdx
open scoped BigOperators

/-- The shape of an a×b matrix and of a length-a vector. -/
abbrev Mat (a b : Nat) : Shape := ⟨2, ![a, b]⟩
abbrev Vc (a : Nat) : Shape := ⟨1, ![a]⟩
abbrev Sc : Shape := ⟨0, ![]⟩

variable {N d e : Nat}

/-! ## The entries as sums -/

/-- A three-pass product of a row a with a column w. -/
def dot3 {d : Nat} (a w : Fin d → EReal) : EReal :=
  ((∑ c, a c * w c) + ∑ c, a c * (w c - w c)) + ∑ c, (a c - a c) * w c

/-- One entry of the blockwise layer before the relu: the row of sums a times the node's factor iv against
    the column wl, the node's own row h against the column wr, plus the bias. -/
def kEntry {d : Nat} (a : Fin d → EReal) (iv : EReal) (h wl wr : Fin d → EReal) (b : EReal) : EReal :=
  (dot3 (fun c => a c * iv) wl + dot3 h wr) + b

/-- One entry of the whole-array layer before the relu. -/
def rEntry {d : Nat} (a : Fin d → EReal) (cm : EReal) (h wl wr : Fin d → EReal) (b : EReal) : EReal :=
  ((∑ c, Ideal.div (a c) cm * wl c) + b) + ∑ c, h c * wr c

theorem dot3_eq {d : Nat} (a w : Fin d → EReal) (ha : ∀ c, IsReal (a c)) (hw : ∀ c, IsReal (w c)) :
    dot3 a w = ∑ c, a c * w c := split_dot a w ha hw

/-- Multiplying by the quotient 1 / c is dividing by c, for c ≠ 0, on every extended real. -/
theorem mul_div_one (x c : EReal) (hc : c ≠ 0) : x * Ideal.div 1 c = Ideal.div x c := by
  unfold Ideal.div
  rw [if_neg hc, if_neg hc, one_mul]

theorem isReal_div_one (c : EReal) (hc : c ≠ 0) : IsReal (Ideal.div 1 c) := by
  unfold Ideal.div
  rw [if_neg hc, one_mul]
  exact IsReal.inv c

/-- The two layers' entries agree: finite sums, finite own features, finite weights, a nonzero count. -/
theorem entry_eq {d : Nat} (a : Fin d → EReal) (cm : EReal) (h wl wr : Fin d → EReal) (b : EReal) (hcm : cm ≠ 0)
    (ha : ∀ c, IsReal (a c)) (hh : ∀ c, IsReal (h c)) (hwl : ∀ c, IsReal (wl c)) (hwr : ∀ c, IsReal (wr c)) :
    kEntry a (Ideal.div 1 cm) h wl wr b = rEntry a cm h wl wr b := by
  unfold kEntry rEntry
  rw [dot3_eq _ _ (fun c => (ha c).mul (isReal_div_one cm hcm)) hwl, dot3_eq _ _ hh hwr]
  rw [Finset.sum_congr rfl fun c _ => by rw [mul_div_one (a c) cm hcm]]
  exact add_right_comm _ _ _

/-- The whole-array layer's entry is finite when the bias is. -/
theorem rEntry_real {d : Nat} (a : Fin d → EReal) (cm : EReal) (h wl wr : Fin d → EReal) (b : EReal) (hcm : cm ≠ 0)
    (ha : ∀ c, IsReal (a c)) (hh : ∀ c, IsReal (h c)) (hwl : ∀ c, IsReal (wl c)) (hwr : ∀ c, IsReal (wr c))
    (hb : IsReal b) : IsReal (rEntry a cm h wl wr b) := by
  unfold rEntry
  refine ((IsReal.sum _ _ fun c => ?_).add hb).add (IsReal.dot h wr hh hwr)
  rw [← mul_div_one (a c) cm hcm]
  exact ((ha c).mul (isReal_div_one cm hcm)).mul (hwl c)

/-! ## The blockwise program's operations -/

/-- A matrix product in three passes over the split factors, each pass into the zero accumulator. -/
def dot3v (lt : FTy.bf16.bits < FTy.f32.bits) (D : DotDims (Mat N d) (Mat d e) (Mat N e))
    (a : FVec Ideal (Mat N d) .f32) (w : FVec Ideal (Mat d e) .f32) : FVec Ideal (Mat N e) .f32 :=
  addf (addf (FloatOps.matmul D none (truncf .bf16 a lt) (truncf .bf16 w lt) (constant (Mat N e) .f32 0x00000000#32))
      (FloatOps.matmul D none (truncf .bf16 a lt) (truncf .bf16 (subf w w) lt) (constant (Mat N e) .f32 0x00000000#32)))
    (FloatOps.matmul D none (truncf .bf16 (subf a a) lt) (truncf .bf16 w lt) (constant (Mat N e) .f32 0x00000000#32))

theorem dot3v_apply (lt : FTy.bf16.bits < FTy.f32.bits) (D : DotDims (Mat N d) (Mat d e) (Mat N e))
    (hD : D = DotDims.plain N d e) (a : FVec Ideal (Mat N d) .f32) (w : FVec Ideal (Mat d e) .f32) (p : Fin N) (j : Fin e) :
    dot3v lt D a w (ix2 p j) = dot3 (fun c => a (ix2 p c)) (fun c => w (ix2 c j)) := by
  unfold dot3v dot3
  rw [addf_apply, addf_apply, Cert.PlainDot.matmul_zero_apply D hD, Cert.PlainDot.matmul_zero_apply D hD,
    Cert.PlainDot.matmul_zero_apply D hD]
  rfl

/-- The layer's block before the relu: (agg · factor)·Wl + h·Wr + the bias row on every row. -/
def sagePay (c1 : (Mat N d).ShapeCasts (Mat N d)) (c2 : (Mat N 1).ShapeCasts (Mat N 1)) (b1 : (Mat N 1).Broadcasts (Mat N d))
    (lt : FTy.bf16.bits < FTy.f32.bits) (D : DotDims (Mat N d) (Mat d e) (Mat N e)) (c3 : (Mat 1 e).ShapeCasts (Mat 1 e))
    (b2 : (Mat 1 e).Broadcasts (Mat N e))
    (v0 : FVec Ideal (Mat N d) .f32) (v2 : FVec Ideal (Mat N 1) .f32) (v6 : FVec Ideal (Mat N d) .f32)
    (v7 v21 : FVec Ideal (Mat d e) .f32) (v36 : FVec Ideal (Mat 1 e) .f32) : FVec Ideal (Mat N e) .f32 :=
  addf (addf (dot3v lt D (mulf (shapeCast (Mat N d) v0 c1) (broadcastTo (Mat N d) (shapeCast (Mat N 1) v2 c2) b1)) v7)
      (dot3v lt D v6 v21))
    (broadcastTo (Mat N e) (shapeCast (Mat 1 e) v36 c3) b2)

theorem sagePay_apply (c1 : (Mat N d).ShapeCasts (Mat N d)) (c2 : (Mat N 1).ShapeCasts (Mat N 1))
    (b1 : (Mat N 1).Broadcasts (Mat N d)) (lt : FTy.bf16.bits < FTy.f32.bits) (D : DotDims (Mat N d) (Mat d e) (Mat N e))
    (hD : D = DotDims.plain N d e) (he : e ≠ 1) (c3 : (Mat 1 e).ShapeCasts (Mat 1 e)) (b2 : (Mat 1 e).Broadcasts (Mat N e))
    (v0 : FVec Ideal (Mat N d) .f32) (v2 : FVec Ideal (Mat N 1) .f32) (v6 : FVec Ideal (Mat N d) .f32)
    (v7 v21 : FVec Ideal (Mat d e) .f32) (v36 : FVec Ideal (Mat 1 e) .f32) (p : Fin N) (j : Fin e) :
    sagePay c1 c2 b1 lt D c3 b2 v0 v2 v6 v7 v21 v36 (ix2 p j)
      = kEntry (fun c => v0 (ix2 p c)) (v2 (ix2 p 0)) (fun c => v6 (ix2 p c)) (fun c => v7 (ix2 c j))
          (fun c => v21 (ix2 c j)) (v36 (ix2 0 j)) := by
  unfold sagePay kEntry
  rw [addf_apply, addf_apply, dot3v_apply lt D hD, dot3v_apply lt D hD, Cert.RowVector.broadcastTo_row he,
    shapeCast_self, shapeCast_self, shapeCast_self]
  refine congrArg (fun z => (dot3 z _ + _) + _) (funext fun c => ?_)
  rw [mulf_apply, Idealize.ShloMosaic.Keepdims.broadcastTo_a1_ab_apply]

/-- The final linear layer's block: A·W + the bias row on every row. -/
def densePay (c1 : (Mat N d).ShapeCasts (Mat N d)) (lt : FTy.bf16.bits < FTy.f32.bits)
    (D : DotDims (Mat N d) (Mat d e) (Mat N e)) (c3 : (Mat 1 e).ShapeCasts (Mat 1 e)) (b2 : (Mat 1 e).Broadcasts (Mat N e))
    (v0 : FVec Ideal (Mat N d) .f32) (v2 : FVec Ideal (Mat d e) .f32) (v16 : FVec Ideal (Mat 1 e) .f32) :
    FVec Ideal (Mat N e) .f32 :=
  addf (dot3v lt D (shapeCast (Mat N d) v0 c1) v2) (broadcastTo (Mat N e) (shapeCast (Mat 1 e) v16 c3) b2)

theorem densePay_apply (c1 : (Mat N d).ShapeCasts (Mat N d)) (lt : FTy.bf16.bits < FTy.f32.bits)
    (D : DotDims (Mat N d) (Mat d e) (Mat N e)) (hD : D = DotDims.plain N d e) (he : e ≠ 1)
    (c3 : (Mat 1 e).ShapeCasts (Mat 1 e)) (b2 : (Mat 1 e).Broadcasts (Mat N e))
    (v0 : FVec Ideal (Mat N d) .f32) (v2 : FVec Ideal (Mat d e) .f32) (v16 : FVec Ideal (Mat 1 e) .f32) (p : Fin N) (j : Fin e) :
    densePay c1 lt D c3 b2 v0 v2 v16 (ix2 p j)
      = dot3 (fun c => v0 (ix2 p c)) (fun c => v2 (ix2 c j)) + v16 (ix2 0 j) := by
  unfold densePay
  rw [addf_apply, dot3v_apply lt D hD, Cert.RowVector.broadcastTo_row he, shapeCast_self, shapeCast_self]

/-! ## The whole arrays the blocks are blocks of -/

/-- The blockwise layer as one function of whole arrays: entry (r, j) from row r of the sums, the node's factor, row r
    of the features, column j of each weight and the bias at j; then the relu against z. -/
def kSage (z : EReal) (agg : (Mat N d).Idx → EReal) (inv : (Mat N 1).Idx → EReal) (h : (Mat N d).Idx → EReal)
    (Wl Wr : (Mat d e).Idx → EReal) (b : (Mat 1 e).Idx → EReal) : (Mat N e).Idx → EReal :=
  fun i => max (kEntry (fun c => agg (ix2 (i 0) c)) (inv (ix2 (i 0) 0)) (fun c => h (ix2 (i 0) c))
    (fun c => Wl (ix2 c (i 1))) (fun c => Wr (ix2 c (i 1))) (b (ix2 0 (i 1)))) z

/-- The final linear layer as one function of whole arrays. -/
def kDense (A : (Mat N d).Idx → EReal) (W : (Mat d e).Idx → EReal) (b : (Mat 1 e).Idx → EReal) : (Mat N e).Idx → EReal :=
  fun i => dot3 (fun c => A (ix2 (i 0) c)) (fun c => W (ix2 c (i 1))) + b (ix2 0 (i 1))

/-! ## The whole-array program's operations -/

/-- A length-a vector sent to an a×1 column, at (r, u): the vector at r. -/
theorem bcast_col {α : Type} {a : Nat} (x : (Vc a).Idx → α) (h : (Vc a).BroadcastsInDim (Mat a 1) (![0] : Fin 1 → Fin 2))
    (r : Fin a) (u : Fin 1) : broadcastInDim (Mat a 1) ![0] h x (ix2 r u) = x (ix1 r) :=
  broadcastInDim_apply _ h x (ix2 r u) (ix1 r) (fun ax => match ax with
    | ⟨0, _⟩ => by
      show r.val = if a = 1 then 0 else r.val
      split
      · have := r.isLt; omega
      · rfl)

/-- An a×1 column sent along both axes to a×b, at (r, c): the column at (r, 0). -/
theorem bcast_col_rows {α : Type} {a b : Nat} (v : (Mat a 1).Idx → α)
    (h : (Mat a 1).BroadcastsInDim (Mat a b) (![0, 1] : Fin 2 → Fin 2)) (r : Fin a) (c : Fin b) :
    broadcastInDim (Mat a b) ![0, 1] h v (ix2 r c) = v (ix2 r 0) :=
  broadcastInDim_apply _ h v (ix2 r c) (ix2 r 0) (fun ax => match ax with
    | ⟨0, _⟩ => by
      show r.val = if a = 1 then 0 else r.val
      split
      · have := r.isLt; omega
      · rfl
    | ⟨1, _⟩ => by
      show (0 : Nat) = if (1 : Nat) = 1 then 0 else _
      rw [if_pos rfl])

/-- A scalar sent to every entry. -/
theorem bcast_scalar {α : Type} {t : Shape} (x : Sc.Idx → α) (h : Sc.BroadcastsInDim t (![] : Fin 0 → Fin t.rank)) (j : t.Idx) :
    broadcastInDim t ![] h x j = x ix0 :=
  broadcastInDim_apply _ h x j ix0 (fun ax => ax.elim0)

/-- The whole-array layer: relu( (agg / c)·Wl + bias + h·Wr ). -/
def rSage (D : DotDims (Mat N d) (Mat d e) (Mat N e)) (g1 : (Vc N).BroadcastsInDim (Mat N 1) (![0] : Fin 1 → Fin 2))
    (g2 : (Mat N 1).BroadcastsInDim (Mat N d) (![0, 1] : Fin 2 → Fin 2))
    (g3 : (Vc e).BroadcastsInDim (Mat 1 e) (![1] : Fin 1 → Fin 2))
    (g4 : (Mat 1 e).BroadcastsInDim (Mat N e) (![0, 1] : Fin 2 → Fin 2))
    (g5 : Sc.BroadcastsInDim (Mat N e) (![] : Fin 0 → Fin 2))
    (agg : FVec Ideal (Mat N d) .f32) (cm : FVec Ideal (Vc N) .f32) (h : FVec Ideal (Mat N d) .f32)
    (Wl : FVec Ideal (Mat d e) .f32) (bl : FVec Ideal (Vc e) .f32) (Wr : FVec Ideal (Mat d e) .f32) : FVec Ideal (Mat N e) .f32 :=
  maximumf (addf (addf (Host.dotGeneral D none (Host.divf agg (broadcastInDim (Mat N d) ![0, 1] g2 (broadcastInDim (Mat N 1) ![0] g1 cm))) Wl)
      (broadcastInDim (Mat N e) ![0, 1] g4 (broadcastInDim (Mat 1 e) ![1] g3 bl)))
    (Host.dotGeneral D none h Wr))
    (broadcastInDim (Mat N e) ![] g5 (constant (F := Ideal) Sc .f32 0x00000000#32))

theorem rSage_apply (D : DotDims (Mat N d) (Mat d e) (Mat N e)) (hD : D = DotDims.plain N d e) (he : e ≠ 1)
    (g1 : (Vc N).BroadcastsInDim (Mat N 1) (![0] : Fin 1 → Fin 2))
    (g2 : (Mat N 1).BroadcastsInDim (Mat N d) (![0, 1] : Fin 2 → Fin 2))
    (g3 : (Vc e).BroadcastsInDim (Mat 1 e) (![1] : Fin 1 → Fin 2))
    (g4 : (Mat 1 e).BroadcastsInDim (Mat N e) (![0, 1] : Fin 2 → Fin 2))
    (g5 : Sc.BroadcastsInDim (Mat N e) (![] : Fin 0 → Fin 2))
    (agg : FVec Ideal (Mat N d) .f32) (cm : FVec Ideal (Vc N) .f32) (h : FVec Ideal (Mat N d) .f32)
    (Wl : FVec Ideal (Mat d e) .f32) (bl : FVec Ideal (Vc e) .f32) (Wr : FVec Ideal (Mat d e) .f32) (r : Fin N) (j : Fin e) :
    rSage D g1 g2 g3 g4 g5 agg cm h Wl bl Wr (ix2 r j)
      = max (rEntry (fun c => agg (ix2 r c)) (cm (ix1 r)) (fun c => h (ix2 r c)) (fun c => Wl (ix2 c j))
          (fun c => Wr (ix2 c j)) (bl (ix1 j))) (Ideal.ofBits .f32 0x00000000#32) := by
  unfold rSage rEntry
  rw [maximumf_apply, addf_apply, addf_apply]
  simp only [Host.dotGeneral]
  rw [Cert.PlainDot.dotGeneral_apply D hD, Cert.PlainDot.dotGeneral_apply D hD, Cert.RowInDim.broadcastInDim_rows he,
    Cert.RowOfVector.broadcastInDim_row he, bcast_scalar]
  refine congrArg (fun z => max ((z + _) + _) _) (Finset.sum_congr rfl fun c _ => ?_)
  show Ideal.div (agg (ix2 r c)) _ * _ = _
  rw [bcast_col_rows, bcast_col]

/-- The whole-array final layer: A·W + bias. -/
def rDense (D : DotDims (Mat N d) (Mat d e) (Mat N e)) (g3 : (Vc e).BroadcastsInDim (Mat 1 e) (![1] : Fin 1 → Fin 2))
    (g4 : (Mat 1 e).BroadcastsInDim (Mat N e) (![0, 1] : Fin 2 → Fin 2))
    (A : FVec Ideal (Mat N d) .f32) (W : FVec Ideal (Mat d e) .f32) (b : FVec Ideal (Vc e) .f32) : FVec Ideal (Mat N e) .f32 :=
  addf (Host.dotGeneral D none A W) (broadcastInDim (Mat N e) ![0, 1] g4 (broadcastInDim (Mat 1 e) ![1] g3 b))

theorem rDense_apply (D : DotDims (Mat N d) (Mat d e) (Mat N e)) (hD : D = DotDims.plain N d e) (he : e ≠ 1)
    (g3 : (Vc e).BroadcastsInDim (Mat 1 e) (![1] : Fin 1 → Fin 2))
    (g4 : (Mat 1 e).BroadcastsInDim (Mat N e) (![0, 1] : Fin 2 → Fin 2))
    (A : FVec Ideal (Mat N d) .f32) (W : FVec Ideal (Mat d e) .f32) (b : FVec Ideal (Vc e) .f32) (r : Fin N) (j : Fin e) :
    rDense D g3 g4 A W b (ix2 r j) = (∑ c, A (ix2 r c) * W (ix2 c j)) + b (ix1 j) := by
  unfold rDense
  rw [addf_apply]
  simp only [Host.dotGeneral]
  rw [Cert.PlainDot.dotGeneral_apply D hD, Cert.RowInDim.broadcastInDim_rows he, Cert.RowOfVector.broadcastInDim_row he]

end Cert.Sage

end
-- ==== Proof.K0.lean ====
/-
  Block pipeline 0 of the blockwise program, read as one whole-array function.

  The pipeline walks 20 grid points; point t works on rows [1000·t, 1000·t + 1000) of the node arrays and on the
  whole weight matrices and bias row, and writes rows [1000·t, 1000·t + 1000) of its output.  The body multiplies the summed neighbour rows by the per-node factor, takes two matrix products (each in three passes), adds the bias row and applies the relu.
  Entry (r, j) of the output depends only on row r of the node arrays and column j of the weights, so the block a
  point writes is the restriction of ONE function of the whole arrays (Layer.lean) to the point's rows; the 20 row
  blocks tile the 20000 rows, so after the pipeline the output array is that function.
  Stated for any contents V of the buffers when the pipeline is entered.
-/
import proofs.«100436_j44839458570700_2_alg».proof.Proof.Patched.KernelIdealFrame
import proofs.«100436_j44839458570700_2_alg».proof.Proof.Layer
import Idealize.ShloMosaic.Lib.Pipeline.Value

set_option maxRecDepth 16384

noncomputable section

namespace Cert.KernelIdeal.Region0

open Cert.KernelIdeal Cert.KernelIdeal.Gen Cert.Sage
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer's block operations followed by the relu. -/
theorem pay_eq (x0 : Vec Ideal S1000x256 .f32) (x1 : Vec Ideal S1000x1 .f32) (x2 : Vec Ideal S1000x256 .f32) (x3 x4 : Vec Ideal S256x512 .f32) (x5 : Vec Ideal S1x512 .f32) :
    k0_pay1 (k0_pay2 x0 x1 x2 x3 x4 x5) (Scalar.ofBits .f32 0x00000000#32)
      = maximumf (sagePay shapeCasts_S1000x256_S1000x256 shapeCasts_S1000x1_S1000x1 broadcasts_S1000x1_S1000x256 bitsLt_bf16_f32 dot_S1000x256_S256x512_S1000x512_1_0_0_1_n_n shapeCasts_S1x512_S1x512 broadcasts_S1x512_S1000x512 x0 x1 x2 x3 x4 x5)
          (broadcast S1000x512 (Scalar.ofBits (F := Ideal) .f32 0x00000000#32)) := rfl

/-- The stored value at entry (p, j) of the block. -/
theorem pay_at (x0 : Vec Ideal S1000x256 .f32) (x1 : Vec Ideal S1000x1 .f32) (x2 : Vec Ideal S1000x256 .f32) (x3 x4 : Vec Ideal S256x512 .f32) (x5 : Vec Ideal S1x512 .f32) (p : Fin 1000) (j : Fin 512) :
    k0_pay1 (k0_pay2 x0 x1 x2 x3 x4 x5) (Scalar.ofBits .f32 0x00000000#32) (ix2 p j)
      = max (kEntry (fun c => x0 (ix2 p c)) (x1 (ix2 p 0)) (fun c => x2 (ix2 p c)) (fun c => x3 (ix2 c j))
          (fun c => x4 (ix2 c j)) (x5 (ix2 0 j))) (Scalar.ofBits (F := Ideal) .f32 0x00000000#32) := by
  rw [pay_eq, maximumf_apply, sagePay_apply _ _ _ _ dot_S1000x256_S256x512_S1000x512_1_0_0_1_n_n rfl (by decide)]
  rfl

/-- The printed index maps over the grid: a node array's block index is (t, 0), a weight's or the bias row's (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_6.index t (0 : Fin 2) = t.val
    ∧ win0_6.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0 :=
  (by decide +kernel : ∀ t : Fin grid0.N, _)

theorem emb0 (t : Fin cfg0.N) (p : Fin 1000) (q : Fin 256) (hr : t.val * 1000 + p.val < 20000) :
    ((cfg0.win 0).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win0_0.index t (0 : Fin 2) * 1000 + 1 * p.val = t.val * 1000 + p.val; rw [f0a]; omega
  | ⟨1, _⟩ => show win0_0.index t (1 : Fin 2) * 256 + 1 * q.val = q.val; rw [f0b]; omega

theorem emb1 (t : Fin cfg0.N) (p : Fin 1000) (q : Fin 1) (hr : t.val * 1000 + p.val < 20000) :
    ((cfg0.win 1).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win0_1.index t (0 : Fin 2) * 1000 + 1 * p.val = t.val * 1000 + p.val; rw [f1a]; omega
  | ⟨1, _⟩ => show win0_1.index t (1 : Fin 2) * 1 + 1 * q.val = q.val; rw [f1b]; omega

theorem emb2 (t : Fin cfg0.N) (p : Fin 1000) (q : Fin 256) (hr : t.val * 1000 + p.val < 20000) :
    ((cfg0.win 2).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win0_2.index t (0 : Fin 2) * 1000 + 1 * p.val = t.val * 1000 + p.val; rw [f2a]; omega
  | ⟨1, _⟩ => show win0_2.index t (1 : Fin 2) * 256 + 1 * q.val = q.val; rw [f2b]; omega

theorem emb3 (t : Fin cfg0.N) (p : Fin 256) (q : Fin 512) :
    ((cfg0.win 3).blk t).view.emb (ix2 p q) = ix2 p q := by
  obtain ⟨f0a, f0b, f1a, f1b, f2a, f2b, f6a, f6b, f3a, f3b, f4a, f4b, f5a, f5b⟩ := idx_facts t
  funext a; apply Fin.ext
  match a with
  | ⟨0, _⟩ => show win0_3.index t (0 : Fin 2) * 256 + 1 * p.val = p.val; rw [f3a]; omega
  | ⟨1, _⟩ => show win0_3.index t (1 : Fin 2) * 512 + 1 * q.val = q.val; rw [f3b]; omega

theorem emb4 (t : Fin cfg0.N) (p : Fin 256) (q : Fin 512) :
    ((cfg0.win 4).blk t).view.emb (ix2 p q) = ix2 p q := by
  obtain ⟨f0a, f0b, f1a, f1b, f2a, f2b, f6a, f6b, f3a, f3b, f4a, f4b, f5a, f5b⟩ := idx_facts t
  funext a; apply Fin.ext
  match a with
  | ⟨0, _⟩ => show win0_4.index t (0 : Fin 2) * 256 + 1 * p.val = p.val; rw [f4a]; omega
  | ⟨1, _⟩ => show win0_4.index t (1 : Fin 2) * 512 + 1 * q.val = q.val; rw [f4b]; omega

theorem emb5 (t : Fin cfg0.N) (p : Fin 1) (q : Fin 512) :
    ((cfg0.win 5).blk t).view.emb (ix2 p q) = ix2 p q := by
  obtain ⟨f0a, f0b, f1a, f1b, f2a, f2b, f6a, f6b, f3a, f3b, f4a, f4b, f5a, f5b⟩ := idx_facts t
  funext a; apply Fin.ext
  match a with
  | ⟨0, _⟩ => show win0_5.index t (0 : Fin 2) * 1 + 1 * p.val = p.val; rw [f5a]; omega
  | ⟨1, _⟩ => show win0_5.index t (1 : Fin 2) * 512 + 1 * q.val = q.val; rw [f5b]; omega

theorem emb6 (t : Fin cfg0.N) (p : Fin 1000) (q : Fin 512) (hr : t.val * 1000 + p.val < 20000) :
    ((cfg0.win 6).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win0_6.index t (0 : Fin 2) * 1000 + 1 * p.val = t.val * 1000 + p.val; rw [f6a]; omega
  | ⟨1, _⟩ => show win0_6.index t (1 : Fin 2) * 512 + 1 * q.val = q.val; rw [f6b]; omega

/-- WHAT POINT t WRITES BACK is block t of the layer's whole-array function of the arrays as the pipeline finds them. -/
theorem flushed_eq (c : Dev nD) (t : Fin cfg0.N) :
    (dat0 V c).flushed 6 t = ((cfg0.win 6).blk t).view.read (Elt Ideal) (kSage (Scalar.ofBits (F := Ideal) .f32 0x00000000#32) (V c main_v22) (V c main_v12) (V c main_arg0) (V c main_arg2) (V c main_arg4) (V c main_v23)) := by
  show (cfg0.win 6).cut (grid0.coords t) ((dat0 V c).after 6 t) = _
  rw [after0_6]
  unfold out0_6
  rw [View.canon_unit_zero hz]
  simp only [View.ld_unit_zero (S := S1000x256) hz, View.ld_unit_zero (S := S1000x1) hz, View.ld_unit_zero (S := S256x512) hz, View.ld_unit_zero (S := S1x512) hz, View.ld_unit_zero (S := S1000x512) hz]
  funext y
  obtain ⟨p, j, rfl⟩ : ∃ (p : Fin 1000) (j : Fin 512), y = ix2 p j := ⟨y 0, y 1, eq_ix2 y⟩
  have ht : t.val < 20 := t.isLt
  have hr : t.val * 1000 + p.val < 20000 := by have := p.isLt; omega
  have e0 : ∀ q, iblk0 V c 0 t (ix2 p q) = V c main_v22 (ix2 ⟨t.val * 1000 + p.val, hr⟩ q) :=
    fun q => congrArg (V c main_v22) (emb0 t p q hr)
  have e1 : iblk0 V c 1 t (ix2 p 0) = V c main_v12 (ix2 ⟨t.val * 1000 + p.val, hr⟩ 0) :=
    congrArg (V c main_v12) (emb1 t p 0 hr)
  have e2 : ∀ q, iblk0 V c 2 t (ix2 p q) = V c main_arg0 (ix2 ⟨t.val * 1000 + p.val, hr⟩ q) :=
    fun q => congrArg (V c main_arg0) (emb2 t p q hr)
  have e3 : ∀ q, iblk0 V c 3 t (ix2 q j) = V c main_arg2 (ix2 q j) :=
    fun q => congrArg (V c main_arg2) (emb3 t q j)
  have e4 : ∀ q, iblk0 V c 4 t (ix2 q j) = V c main_arg4 (ix2 q j) :=
    fun q => congrArg (V c main_arg4) (emb4 t q j)
  have e5 : iblk0 V c 5 t (ix2 0 j) = V c main_v23 (ix2 0 j) :=
    congrArg (V c main_v23) (emb5 t 0 j)
  show k0_pay1 (k0_pay2 (iblk0 V c 0 t) (iblk0 V c 1 t) (iblk0 V c 2 t) (iblk0 V c 3 t) (iblk0 V c 4 t) (iblk0 V c 5 t)) (Scalar.ofBits .f32 0x00000000#32) (ix2 p j)
      = (kSage (Scalar.ofBits (F := Ideal) .f32 0x00000000#32) (V c main_v22) (V c main_v12) (V c main_arg0) (V c main_arg2) (V c main_arg4) (V c main_v23)) (((cfg0.win 6).blk t).view.emb (ix2 p j))
  rw [pay_at, emb6 t p j hr]
  show _ = max (kEntry (fun q => V c main_v22 (ix2 ⟨t.val * 1000 + p.val, hr⟩ q)) (V c main_v12 (ix2 ⟨t.val * 1000 + p.val, hr⟩ 0))
    (fun q => V c main_arg0 (ix2 ⟨t.val * 1000 + p.val, hr⟩ q)) (fun q => V c main_arg2 (ix2 q j)) (fun q => V c main_arg4 (ix2 q j))
    (V c main_v23 (ix2 0 j))) (Scalar.ofBits (F := Ideal) .f32 0x00000000#32)
  rw [funext e0, e1, funext e2, funext e3, funext e4, e5]

/-- An index of the output array is in point t's block iff each coordinate is in the block's range. -/
theorem mem_blk (t : Fin cfg0.N) (i : S20000x512.Idx) :
    i ∈ ((cfg0.win 6).blk t).view.set ↔ ∀ a : Fin 2, win0_6.index t a * S1000x512.size a ≤ (i a).val ∧ (i a).val < win0_6.index t a * S1000x512.size a + S1000x512.size a := by
  show i ∈ ((View.whole main_v24).slice (win0_6.rect t)).set ↔ _
  rw [View.set_slice_whole, Rect.mem_set_unit]
  exact Iff.rfl

/-- Row r of the output is written by point r / 1000: the blocks cover the array. -/
theorem cover (i : S20000x512.Idx) : ∃ t : Fin cfg0.N, (cfg0.win 6).flush t = true ∧ i ∈ ((cfg0.win 6).blk t).view.set := by
  have hi0 : (i 0).val < 20000 := (i 0).isLt
  have hi1 : (i 1).val < 512 := (i 1).isLt
  have hq : (i 0).val / 1000 < 20 := by omega
  refine ⟨⟨(i 0).val / 1000, hq⟩, flush0_6 _, ?_⟩
  obtain ⟨f0a, f0b, f1a, f1b, f2a, f2b, f6a, f6b, f3a, f3b, f4a, f4b, f5a, f5b⟩ := idx_facts ⟨(i 0).val / 1000, hq⟩
  rw [mem_blk]
  intro a
  match a with
  | ⟨0, _⟩ =>
    show win0_6.index ⟨(i 0).val / 1000, hq⟩ (0 : Fin 2) * 1000 ≤ (i 0).val ∧ (i 0).val < win0_6.index ⟨(i 0).val / 1000, hq⟩ (0 : Fin 2) * 1000 + 1000
    rw [f6a]; show (i 0).val / 1000 * 1000 ≤ (i 0).val ∧ (i 0).val < (i 0).val / 1000 * 1000 + 1000; omega
  | ⟨1, _⟩ =>
    show win0_6.index ⟨(i 0).val / 1000, hq⟩ (1 : Fin 2) * 512 ≤ (i 1).val ∧ (i 1).val < win0_6.index ⟨(i 0).val / 1000, hq⟩ (1 : Fin 2) * 512 + 512
    rw [f6b]; omega

/-- THE OUTPUT ARRAY after the pipeline: the layer's whole-array function of the arrays as the pipeline finds them. -/
theorem final (c : Dev nD) : (dat0 V c).arrAt 6 cfg0.N = (kSage (Scalar.ofBits (F := Ideal) .f32 0x00000000#32) (V c main_v22) (V c main_v12) (V c main_arg0) (V c main_arg2) (V c main_arg4) (V c main_v23)) :=
  (dat0 V c).arrAt_eq_of_cover 6 _ (fun t _ => flushed_eq V c t) cover

end Cert.KernelIdeal.Region0

end
-- ==== Proof.K1.lean ====
/-
  Block pipeline 1 of the blockwise program, read as one whole-array function.

  The pipeline walks 20 grid points; point t works on rows [1000·t, 1000·t + 1000) of the node arrays and on the
  whole weight matrices and bias row, and writes rows [1000·t, 1000·t + 1000) of its output.  The body multiplies the summed neighbour rows by the per-node factor, takes two matrix products (each in three passes), adds the bias row and applies the relu.
  Entry (r, j) of the output depends only on row r of the node arrays and column j of the weights, so the block a
  point writes is the restriction of ONE function of the whole arrays (Layer.lean) to the point's rows; the 20 row
  blocks tile the 20000 rows, so after the pipeline the output array is that function.
  Stated for any contents V of the buffers when the pipeline is entered.
-/
import proofs.«100436_j44839458570700_2_alg».proof.Proof.Patched.KernelIdealFrame
import proofs.«100436_j44839458570700_2_alg».proof.Proof.Layer
import Idealize.ShloMosaic.Lib.Pipeline.Value

set_option maxRecDepth 16384

noncomputable section

namespace Cert.KernelIdeal.Region1

open Cert.KernelIdeal Cert.KernelIdeal.Gen Cert.Sage
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer's block operations followed by the relu. -/
theorem pay_eq (x0 : Vec Ideal S1000x512 .f32) (x1 : Vec Ideal S1000x1 .f32) (x2 : Vec Ideal S1000x512 .f32) (x3 x4 : Vec Ideal S512x512 .f32) (x5 : Vec Ideal S1x512 .f32) :
    k1_pay1 (k1_pay2 x0 x1 x2 x3 x4 x5)
      = maximumf (sagePay shapeCasts_S1000x512_S1000x512 shapeCasts_S1000x1_S1000x1 broadcasts_S1000x1_S1000x512 bitsLt_bf16_f32 dot_S1000x512_S512x512_S1000x512_1_0_0_1_n_n shapeCasts_S1x512_S1x512 broadcasts_S1x512_S1000x512 x0 x1 (shapeCast S1000x512 x2 shapeCasts_S1000x512_S1000x512) x3 x4 x5)
          (broadcast S1000x512 (Scalar.ofBits (F := Ideal) .f32 0x00000000#32)) := rfl

/-- The stored value at entry (p, j) of the block. -/
theorem pay_at (x0 : Vec Ideal S1000x512 .f32) (x1 : Vec Ideal S1000x1 .f32) (x2 : Vec Ideal S1000x512 .f32) (x3 x4 : Vec Ideal S512x512 .f32) (x5 : Vec Ideal S1x512 .f32) (p : Fin 1000) (j : Fin 512) :
    k1_pay1 (k1_pay2 x0 x1 x2 x3 x4 x5) (ix2 p j)
      = max (kEntry (fun c => x0 (ix2 p c)) (x1 (ix2 p 0)) (fun c => x2 (ix2 p c)) (fun c => x3 (ix2 c j))
          (fun c => x4 (ix2 c j)) (x5 (ix2 0 j))) (Scalar.ofBits (F := Ideal) .f32 0x00000000#32) := by
  rw [pay_eq, maximumf_apply, sagePay_apply _ _ _ _ dot_S1000x512_S512x512_S1000x512_1_0_0_1_n_n rfl (by decide), shapeCast_self]
  rfl

/-- The printed index maps over the grid: a node array's block index is (t, 0), a weight's or the bias row's (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_6.index t (0 : Fin 2) = t.val
    ∧ win1_6.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0 :=
  (by decide +kernel : ∀ t : Fin grid1.N, _)

theorem emb0 (t : Fin cfg1.N) (p : Fin 1000) (q : Fin 512) (hr : t.val * 1000 + p.val < 20000) :
    ((cfg1.win 0).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win1_0.index t (0 : Fin 2) * 1000 + 1 * p.val = t.val * 1000 + p.val; rw [f0a]; omega
  | ⟨1, _⟩ => show win1_0.index t (1 : Fin 2) * 512 + 1 * q.val = q.val; rw [f0b]; omega

theorem emb1 (t : Fin cfg1.N) (p : Fin 1000) (q : Fin 1) (hr : t.val * 1000 + p.val < 20000) :
    ((cfg1.win 1).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win1_1.index t (0 : Fin 2) * 1000 + 1 * p.val = t.val * 1000 + p.val; rw [f1a]; omega
  | ⟨1, _⟩ => show win1_1.index t (1 : Fin 2) * 1 + 1 * q.val = q.val; rw [f1b]; omega

theorem emb2 (t : Fin cfg1.N) (p : Fin 1000) (q : Fin 512) (hr : t.val * 1000 + p.val < 20000) :
    ((cfg1.win 2).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win1_2.index t (0 : Fin 2) * 1000 + 1 * p.val = t.val * 1000 + p.val; rw [f2a]; omega
  | ⟨1, _⟩ => show win1_2.index t (1 : Fin 2) * 512 + 1 * q.val = q.val; rw [f2b]; omega

theorem emb3 (t : Fin cfg1.N) (p : Fin 512) (q : Fin 512) :
    ((cfg1.win 3).blk t).view.emb (ix2 p q) = ix2 p q := by
  obtain ⟨f0a, f0b, f1a, f1b, f2a, f2b, f6a, f6b, f3a, f3b, f4a, f4b, f5a, f5b⟩ := idx_facts t
  funext a; apply Fin.ext
  match a with
  | ⟨0, _⟩ => show win1_3.index t (0 : Fin 2) * 512 + 1 * p.val = p.val; rw [f3a]; omega
  | ⟨1, _⟩ => show win1_3.index t (1 : Fin 2) * 512 + 1 * q.val = q.val; rw [f3b]; omega

theorem emb4 (t : Fin cfg1.N) (p : Fin 512) (q : Fin 512) :
    ((cfg1.win 4).blk t).view.emb (ix2 p q) = ix2 p q := by
  obtain ⟨f0a, f0b, f1a, f1b, f2a, f2b, f6a, f6b, f3a, f3b, f4a, f4b, f5a, f5b⟩ := idx_facts t
  funext a; apply Fin.ext
  match a with
  | ⟨0, _⟩ => show win1_4.index t (0 : Fin 2) * 512 + 1 * p.val = p.val; rw [f4a]; omega
  | ⟨1, _⟩ => show win1_4.index t (1 : Fin 2) * 512 + 1 * q.val = q.val; rw [f4b]; omega

theorem emb5 (t : Fin cfg1.N) (p : Fin 1) (q : Fin 512) :
    ((cfg1.win 5).blk t).view.emb (ix2 p q) = ix2 p q := by
  obtain ⟨f0a, f0b, f1a, f1b, f2a, f2b, f6a, f6b, f3a, f3b, f4a, f4b, f5a, f5b⟩ := idx_facts t
  funext a; apply Fin.ext
  match a with
  | ⟨0, _⟩ => show win1_5.index t (0 : Fin 2) * 1 + 1 * p.val = p.val; rw [f5a]; omega
  | ⟨1, _⟩ => show win1_5.index t (1 : Fin 2) * 512 + 1 * q.val = q.val; rw [f5b]; omega

theorem emb6 (t : Fin cfg1.N) (p : Fin 1000) (q : Fin 512) (hr : t.val * 1000 + p.val < 20000) :
    ((cfg1.win 6).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win1_6.index t (0 : Fin 2) * 1000 + 1 * p.val = t.val * 1000 + p.val; rw [f6a]; omega
  | ⟨1, _⟩ => show win1_6.index t (1 : Fin 2) * 512 + 1 * q.val = q.val; rw [f6b]; omega

/-- WHAT POINT t WRITES BACK is block t of the layer's whole-array function of the arrays as the pipeline finds them. -/
theorem flushed_eq (c : Dev nD) (t : Fin cfg1.N) :
    (dat1 V c).flushed 6 t = ((cfg1.win 6).blk t).view.read (Elt Ideal) (kSage (Scalar.ofBits (F := Ideal) .f32 0x00000000#32) (V c main_v34) (V c main_v12) (V c main_v24) (V c main_arg5) (V c main_arg7) (V c main_v35)) := by
  show (cfg1.win 6).cut (grid1.coords t) ((dat1 V c).after 6 t) = _
  rw [after1_6]
  unfold out1_6
  rw [View.canon_unit_zero hz]
  simp only [View.ld_unit_zero (S := S1000x512) hz, View.ld_unit_zero (S := S1000x1) hz, View.ld_unit_zero (S := S512x512) hz, View.ld_unit_zero (S := S1x512) hz]
  funext y
  obtain ⟨p, j, rfl⟩ : ∃ (p : Fin 1000) (j : Fin 512), y = ix2 p j := ⟨y 0, y 1, eq_ix2 y⟩
  have ht : t.val < 20 := t.isLt
  have hr : t.val * 1000 + p.val < 20000 := by have := p.isLt; omega
  have e0 : ∀ q, iblk1 V c 0 t (ix2 p q) = V c main_v34 (ix2 ⟨t.val * 1000 + p.val, hr⟩ q) :=
    fun q => congrArg (V c main_v34) (emb0 t p q hr)
  have e1 : iblk1 V c 1 t (ix2 p 0) = V c main_v12 (ix2 ⟨t.val * 1000 + p.val, hr⟩ 0) :=
    congrArg (V c main_v12) (emb1 t p 0 hr)
  have e2 : ∀ q, iblk1 V c 2 t (ix2 p q) = V c main_v24 (ix2 ⟨t.val * 1000 + p.val, hr⟩ q) :=
    fun q => congrArg (V c main_v24) (emb2 t p q hr)
  have e3 : ∀ q, iblk1 V c 3 t (ix2 q j) = V c main_arg5 (ix2 q j) :=
    fun q => congrArg (V c main_arg5) (emb3 t q j)
  have e4 : ∀ q, iblk1 V c 4 t (ix2 q j) = V c main_arg7 (ix2 q j) :=
    fun q => congrArg (V c main_arg7) (emb4 t q j)
  have e5 : iblk1 V c 5 t (ix2 0 j) = V c main_v35 (ix2 0 j) :=
    congrArg (V c main_v35) (emb5 t 0 j)
  show k1_pay1 (k1_pay2 (iblk1 V c 0 t) (iblk1 V c 1 t) (iblk1 V c 2 t) (iblk1 V c 3 t) (iblk1 V c 4 t) (iblk1 V c 5 t)) (ix2 p j)
      = (kSage (Scalar.ofBits (F := Ideal) .f32 0x00000000#32) (V c main_v34) (V c main_v12) (V c main_v24) (V c main_arg5) (V c main_arg7) (V c main_v35)) (((cfg1.win 6).blk t).view.emb (ix2 p j))
  rw [pay_at, emb6 t p j hr]
  show _ = max (kEntry (fun q => V c main_v34 (ix2 ⟨t.val * 1000 + p.val, hr⟩ q)) (V c main_v12 (ix2 ⟨t.val * 1000 + p.val, hr⟩ 0))
    (fun q => V c main_v24 (ix2 ⟨t.val * 1000 + p.val, hr⟩ q)) (fun q => V c main_arg5 (ix2 q j)) (fun q => V c main_arg7 (ix2 q j))
    (V c main_v35 (ix2 0 j))) (Scalar.ofBits (F := Ideal) .f32 0x00000000#32)
  rw [funext e0, e1, funext e2, funext e3, funext e4, e5]

/-- An index of the output array is in point t's block iff each coordinate is in the block's range. -/
theorem mem_blk (t : Fin cfg1.N) (i : S20000x512.Idx) :
    i ∈ ((cfg1.win 6).blk t).view.set ↔ ∀ a : Fin 2, win1_6.index t a * S1000x512.size a ≤ (i a).val ∧ (i a).val < win1_6.index t a * S1000x512.size a + S1000x512.size a := by
  show i ∈ ((View.whole main_v36).slice (win1_6.rect t)).set ↔ _
  rw [View.set_slice_whole, Rect.mem_set_unit]
  exact Iff.rfl

/-- Row r of the output is written by point r / 1000: the blocks cover the array. -/
theorem cover (i : S20000x512.Idx) : ∃ t : Fin cfg1.N, (cfg1.win 6).flush t = true ∧ i ∈ ((cfg1.win 6).blk t).view.set := by
  have hi0 : (i 0).val < 20000 := (i 0).isLt
  have hi1 : (i 1).val < 512 := (i 1).isLt
  have hq : (i 0).val / 1000 < 20 := by omega
  refine ⟨⟨(i 0).val / 1000, hq⟩, flush1_6 _, ?_⟩
  obtain ⟨f0a, f0b, f1a, f1b, f2a, f2b, f6a, f6b, f3a, f3b, f4a, f4b, f5a, f5b⟩ := idx_facts ⟨(i 0).val / 1000, hq⟩
  rw [mem_blk]
  intro a
  match a with
  | ⟨0, _⟩ =>
    show win1_6.index ⟨(i 0).val / 1000, hq⟩ (0 : Fin 2) * 1000 ≤ (i 0).val ∧ (i 0).val < win1_6.index ⟨(i 0).val / 1000, hq⟩ (0 : Fin 2) * 1000 + 1000
    rw [f6a]; show (i 0).val / 1000 * 1000 ≤ (i 0).val ∧ (i 0).val < (i 0).val / 1000 * 1000 + 1000; omega
  | ⟨1, _⟩ =>
    show win1_6.index ⟨(i 0).val / 1000, hq⟩ (1 : Fin 2) * 512 ≤ (i 1).val ∧ (i 1).val < win1_6.index ⟨(i 0).val / 1000, hq⟩ (1 : Fin 2) * 512 + 512
    rw [f6b]; omega

/-- THE OUTPUT ARRAY after the pipeline: the layer's whole-array function of the arrays as the pipeline finds them. -/
theorem final (c : Dev nD) : (dat1 V c).arrAt 6 cfg1.N = (kSage (Scalar.ofBits (F := Ideal) .f32 0x00000000#32) (V c main_v34) (V c main_v12) (V c main_v24) (V c main_arg5) (V c main_arg7) (V c main_v35)) :=
  (dat1 V c).arrAt_eq_of_cover 6 _ (fun t _ => flushed_eq V c t) cover

end Cert.KernelIdeal.Region1

end
-- ==== Proof.K2.lean ====
/-
  Block pipeline 2 of the blockwise program, read as one whole-array function.

  The pipeline walks 20 grid points; point t works on rows [1000·t, 1000·t + 1000) of the node arrays and on the
  whole weight matrices and bias row, and writes rows [1000·t, 1000·t + 1000) of its output.  The body multiplies the summed neighbour rows by the per-node factor, takes two matrix products (each in three passes), adds the bias row and applies the relu.
  Entry (r, j) of the output depends only on row r of the node arrays and column j of the weights, so the block a
  point writes is the restriction of ONE function of the whole arrays (Layer.lean) to the point's rows; the 20 row
  blocks tile the 20000 rows, so after the pipeline the output array is that function.
  Stated for any contents V of the buffers when the pipeline is entered.
-/
import proofs.«100436_j44839458570700_2_alg».proof.Proof.Patched.KernelIdealFrame
import proofs.«100436_j44839458570700_2_alg».proof.Proof.Layer
import Idealize.ShloMosaic.Lib.Pipeline.Value

set_option maxRecDepth 16384

noncomputable section

namespace Cert.KernelIdeal.Region2

open Cert.KernelIdeal Cert.KernelIdeal.Gen Cert.Sage
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer's block operations followed by the relu. -/
theorem pay_eq (x0 : Vec Ideal S1000x512 .f32) (x1 : Vec Ideal S1000x1 .f32) (x2 : Vec Ideal S1000x512 .f32) (x3 x4 : Vec Ideal S512x1024 .f32) (x5 : Vec Ideal S1x1024 .f32) :
    k2_pay1 (k2_pay2 x0 x1 x2 x3 x4 x5)
      = maximumf (sagePay shapeCasts_S1000x512_S1000x512 shapeCasts_S1000x1_S1000x1 broadcasts_S1000x1_S1000x512 bitsLt_bf16_f32 dot_S1000x512_S512x1024_S1000x1024_1_0_0_1_n_n shapeCasts_S1x1024_S1x1024 broadcasts_S1x1024_S1000x1024 x0 x1 (shapeCast S1000x512 x2 shapeCasts_S1000x512_S1000x512) x3 x4 x5)
          (broadcast S1000x1024 (Scalar.ofBits (F := Ideal) .f32 0x00000000#32)) := rfl

/-- The stored value at entry (p, j) of the block. -/
theorem pay_at (x0 : Vec Ideal S1000x512 .f32) (x1 : Vec Ideal S1000x1 .f32) (x2 : Vec Ideal S1000x512 .f32) (x3 x4 : Vec Ideal S512x1024 .f32) (x5 : Vec Ideal S1x1024 .f32) (p : Fin 1000) (j : Fin 1024) :
    k2_pay1 (k2_pay2 x0 x1 x2 x3 x4 x5) (ix2 p j)
      = max (kEntry (fun c => x0 (ix2 p c)) (x1 (ix2 p 0)) (fun c => x2 (ix2 p c)) (fun c => x3 (ix2 c j))
          (fun c => x4 (ix2 c j)) (x5 (ix2 0 j))) (Scalar.ofBits (F := Ideal) .f32 0x00000000#32) := by
  rw [pay_eq, maximumf_apply, sagePay_apply _ _ _ _ dot_S1000x512_S512x1024_S1000x1024_1_0_0_1_n_n rfl (by decide), shapeCast_self]
  rfl

/-- The printed index maps over the grid: a node array's block index is (t, 0), a weight's or the bias row's (0, 0). -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_6.index t (0 : Fin 2) = t.val
    ∧ win2_6.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0 :=
  (by decide +kernel : ∀ t : Fin grid2.N, _)

theorem emb0 (t : Fin cfg2.N) (p : Fin 1000) (q : Fin 512) (hr : t.val * 1000 + p.val < 20000) :
    ((cfg2.win 0).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win2_0.index t (0 : Fin 2) * 1000 + 1 * p.val = t.val * 1000 + p.val; rw [f0a]; omega
  | ⟨1, _⟩ => show win2_0.index t (1 : Fin 2) * 512 + 1 * q.val = q.val; rw [f0b]; omega

theorem emb1 (t : Fin cfg2.N) (p : Fin 1000) (q : Fin 1) (hr : t.val * 1000 + p.val < 20000) :
    ((cfg2.win 1).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win2_1.index t (0 : Fin 2) * 1000 + 1 * p.val = t.val * 1000 + p.val; rw [f1a]; omega
  | ⟨1, _⟩ => show win2_1.index t (1 : Fin 2) * 1 + 1 * q.val = q.val; rw [f1b]; omega

theorem emb2 (t : Fin cfg2.N) (p : Fin 1000) (q : Fin 512) (hr : t.val * 1000 + p.val < 20000) :
    ((cfg2.win 2).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win2_2.index t (0 : Fin 2) * 1000 + 1 * p.val = t.val * 1000 + p.val; rw [f2a]; omega
  | ⟨1, _⟩ => show win2_2.index t (1 : Fin 2) * 512 + 1 * q.val = q.val; rw [f2b]; omega

theorem emb3 (t : Fin cfg2.N) (p : Fin 512) (q : Fin 1024) :
    ((cfg2.win 3).blk t).view.emb (ix2 p q) = ix2 p q := by
  obtain ⟨f0a, f0b, f1a, f1b, f2a, f2b, f6a, f6b, f3a, f3b, f4a, f4b, f5a, f5b⟩ := idx_facts t
  funext a; apply Fin.ext
  match a with
  | ⟨0, _⟩ => show win2_3.index t (0 : Fin 2) * 512 + 1 * p.val = p.val; rw [f3a]; omega
  | ⟨1, _⟩ => show win2_3.index t (1 : Fin 2) * 1024 + 1 * q.val = q.val; rw [f3b]; omega

theorem emb4 (t : Fin cfg2.N) (p : Fin 512) (q : Fin 1024) :
    ((cfg2.win 4).blk t).view.emb (ix2 p q) = ix2 p q := by
  obtain ⟨f0a, f0b, f1a, f1b, f2a, f2b, f6a, f6b, f3a, f3b, f4a, f4b, f5a, f5b⟩ := idx_facts t
  funext a; apply Fin.ext
  match a with
  | ⟨0, _⟩ => show win2_4.index t (0 : Fin 2) * 512 + 1 * p.val = p.val; rw [f4a]; omega
  | ⟨1, _⟩ => show win2_4.index t (1 : Fin 2) * 1024 + 1 * q.val = q.val; rw [f4b]; omega

theorem emb5 (t : Fin cfg2.N) (p : Fin 1) (q : Fin 1024) :
    ((cfg2.win 5).blk t).view.emb (ix2 p q) = ix2 p q := by
  obtain ⟨f0a, f0b, f1a, f1b, f2a, f2b, f6a, f6b, f3a, f3b, f4a, f4b, f5a, f5b⟩ := idx_facts t
  funext a; apply Fin.ext
  match a with
  | ⟨0, _⟩ => show win2_5.index t (0 : Fin 2) * 1 + 1 * p.val = p.val; rw [f5a]; omega
  | ⟨1, _⟩ => show win2_5.index t (1 : Fin 2) * 1024 + 1 * q.val = q.val; rw [f5b]; omega

theorem emb6 (t : Fin cfg2.N) (p : Fin 1000) (q : Fin 1024) (hr : t.val * 1000 + p.val < 20000) :
    ((cfg2.win 6).blk t).view.emb (ix2 p q) = ix2 ⟨t.val * 1000 + p.val, hr⟩ q := by
  obtain ⟨f0a, f0b, f1a, f1b, f2a, f2b, f6a, f6b, f3a, f3b, f4a, f4b, f5a, f5b⟩ := idx_facts t
  funext a; apply Fin.ext
  match a with
  | ⟨0, _⟩ => show win2_6.index t (0 : Fin 2) * 1000 + 1 * p.val = t.val * 1000 + p.val; rw [f6a]; omega
  | ⟨1, _⟩ => show win2_6.index t (1 : Fin 2) * 1024 + 1 * q.val = q.val; rw [f6b]; omega

/-- WHAT POINT t WRITES BACK is block t of the layer's whole-array function of the arrays as the pipeline finds them. -/
theorem flushed_eq (c : Dev nD) (t : Fin cfg2.N) :
    (dat2 V c).flushed 6 t = ((cfg2.win 6).blk t).view.read (Elt Ideal) (kSage (Scalar.ofBits (F := Ideal) .f32 0x00000000#32) (V c main_v46) (V c main_v12) (V c main_v36) (V c main_arg8) (V c main_arg10) (V c main_v47)) := by
  show (cfg2.win 6).cut (grid2.coords t) ((dat2 V c).after 6 t) = _
  rw [after2_6]
  unfold out2_6
  rw [View.canon_unit_zero hz]
  simp only [View.ld_unit_zero (S := S1000x512) hz, View.ld_unit_zero (S := S1000x1) hz, View.ld_unit_zero (S := S512x1024) hz, View.ld_unit_zero (S := S1x1024) hz, View.ld_unit_zero (S := S1000x1024) hz]
  funext y
  obtain ⟨p, j, rfl⟩ : ∃ (p : Fin 1000) (j : Fin 1024), y = ix2 p j := ⟨y 0, y 1, eq_ix2 y⟩
  have ht : t.val < 20 := t.isLt
  have hr : t.val * 1000 + p.val < 20000 := by have := p.isLt; omega
  have e0 : ∀ q, iblk2 V c 0 t (ix2 p q) = V c main_v46 (ix2 ⟨t.val * 1000 + p.val, hr⟩ q) :=
    fun q => congrArg (V c main_v46) (emb0 t p q hr)
  have e1 : iblk2 V c 1 t (ix2 p 0) = V c main_v12 (ix2 ⟨t.val * 1000 + p.val, hr⟩ 0) :=
    congrArg (V c main_v12) (emb1 t p 0 hr)
  have e2 : ∀ q, iblk2 V c 2 t (ix2 p q) = V c main_v36 (ix2 ⟨t.val * 1000 + p.val, hr⟩ q) :=
    fun q => congrArg (V c main_v36) (emb2 t p q hr)
  have e3 : ∀ q, iblk2 V c 3 t (ix2 q j) = V c main_arg8 (ix2 q j) :=
    fun q => congrArg (V c main_arg8) (emb3 t q j)
  have e4 : ∀ q, iblk2 V c 4 t (ix2 q j) = V c main_arg10 (ix2 q j) :=
    fun q => congrArg (V c main_arg10) (emb4 t q j)
  have e5 : iblk2 V c 5 t (ix2 0 j) = V c main_v47 (ix2 0 j) :=
    congrArg (V c main_v47) (emb5 t 0 j)
  show k2_pay1 (k2_pay2 (iblk2 V c 0 t) (iblk2 V c 1 t) (iblk2 V c 2 t) (iblk2 V c 3 t) (iblk2 V c 4 t) (iblk2 V c 5 t)) (ix2 p j)
      = (kSage (Scalar.ofBits (F := Ideal) .f32 0x00000000#32) (V c main_v46) (V c main_v12) (V c main_v36) (V c main_arg8) (V c main_arg10) (V c main_v47)) (((cfg2.win 6).blk t).view.emb (ix2 p j))
  rw [pay_at, emb6 t p j hr]
  show _ = max (kEntry (fun q => V c main_v46 (ix2 ⟨t.val * 1000 + p.val, hr⟩ q)) (V c main_v12 (ix2 ⟨t.val * 1000 + p.val, hr⟩ 0))
    (fun q => V c main_v36 (ix2 ⟨t.val * 1000 + p.val, hr⟩ q)) (fun q => V c main_arg8 (ix2 q j)) (fun q => V c main_arg10 (ix2 q j))
    (V c main_v47 (ix2 0 j))) (Scalar.ofBits (F := Ideal) .f32 0x00000000#32)
  rw [funext e0, e1, funext e2, funext e3, funext e4, e5]

/-- An index of the output array is in point t's block iff each coordinate is in the block's range. -/
theorem mem_blk (t : Fin cfg2.N) (i : S20000x1024.Idx) :
    i ∈ ((cfg2.win 6).blk t).view.set ↔ ∀ a : Fin 2, win2_6.index t a * S1000x1024.size a ≤ (i a).val ∧ (i a).val < win2_6.index t a * S1000x1024.size a + S1000x1024.size a := by
  show i ∈ ((View.whole main_v48).slice (win2_6.rect t)).set ↔ _
  rw [View.set_slice_whole, Rect.mem_set_unit]
  exact Iff.rfl

/-- Row r of the output is written by point r / 1000: the blocks cover the array. -/
theorem cover (i : S20000x1024.Idx) : ∃ t : Fin cfg2.N, (cfg2.win 6).flush t = true ∧ i ∈ ((cfg2.win 6).blk t).view.set := by
  have hi0 : (i 0).val < 20000 := (i 0).isLt
  have hi1 : (i 1).val < 1024 := (i 1).isLt
  have hq : (i 0).val / 1000 < 20 := by omega
  refine ⟨⟨(i 0).val / 1000, hq⟩, flush2_6 _, ?_⟩
  obtain ⟨f0a, f0b, f1a, f1b, f2a, f2b, f6a, f6b, f3a, f3b, f4a, f4b, f5a, f5b⟩ := idx_facts ⟨(i 0).val / 1000, hq⟩
  rw [mem_blk]
  intro a
  match a with
  | ⟨0, _⟩ =>
    show win2_6.index ⟨(i 0).val / 1000, hq⟩ (0 : Fin 2) * 1000 ≤ (i 0).val ∧ (i 0).val < win2_6.index ⟨(i 0).val / 1000, hq⟩ (0 : Fin 2) * 1000 + 1000
    rw [f6a]; show (i 0).val / 1000 * 1000 ≤ (i 0).val ∧ (i 0).val < (i 0).val / 1000 * 1000 + 1000; omega
  | ⟨1, _⟩ =>
    show win2_6.index ⟨(i 0).val / 1000, hq⟩ (1 : Fin 2) * 1024 ≤ (i 1).val ∧ (i 1).val < win2_6.index ⟨(i 0).val / 1000, hq⟩ (1 : Fin 2) * 1024 + 1024
    rw [f6b]; omega

/-- THE OUTPUT ARRAY after the pipeline: the layer's whole-array function of the arrays as the pipeline finds them. -/
theorem final (c : Dev nD) : (dat2 V c).arrAt 6 cfg2.N = (kSage (Scalar.ofBits (F := Ideal) .f32 0x00000000#32) (V c main_v46) (V c main_v12) (V c main_v36) (V c main_arg8) (V c main_arg10) (V c main_v47)) :=
  (dat2 V c).arrAt_eq_of_cover 6 _ (fun t _ => flushed_eq V c t) cover

end Cert.KernelIdeal.Region2

end
-- ==== Proof.K3.lean ====
/-
  Block pipeline 3 of the blockwise program, read as one whole-array function.

  The pipeline walks 20 grid points; point t works on rows [1000·t, 1000·t + 1000) of the node arrays and on the
  whole weight matrices and bias row, and writes rows [1000·t, 1000·t + 1000) of its output.  The body takes one matrix product (in three passes) and adds the bias row.
  Entry (r, j) of the output depends only on row r of the node arrays and column j of the weights, so the block a
  point writes is the restriction of ONE function of the whole arrays (Layer.lean) to the point's rows; the 20 row
  blocks tile the 20000 rows, so after the pipeline the output array is that function.
  Stated for any contents V of the buffers when the pipeline is entered.
-/
import proofs.«100436_j44839458570700_2_alg».proof.Proof.Patched.KernelIdealFrame
import proofs.«100436_j44839458570700_2_alg».proof.Proof.Layer
import Idealize.ShloMosaic.Lib.Pipeline.Value

set_option maxRecDepth 16384

noncomputable section

namespace Cert.KernelIdeal.Region3

open Cert.KernelIdeal Cert.KernelIdeal.Gen Cert.Sage
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the final layer's block operations. -/
theorem pay_eq (x0 : Vec Ideal S1000x1024 .f32) (x1 : Vec Ideal S1024x512 .f32) (x2 : Vec Ideal S1x512 .f32) :
    k3_pay1 x0 x1 x2 = densePay shapeCasts_S1000x1024_S1000x1024 bitsLt_bf16_f32 dot_S1000x1024_S1024x512_S1000x512_1_0_0_1_n_n shapeCasts_S1x512_S1x512 broadcasts_S1x512_S1000x512 x0 x1 x2 := rfl

/-- The stored value at entry (p, j) of the block. -/
theorem pay_at (x0 : Vec Ideal S1000x1024 .f32) (x1 : Vec Ideal S1024x512 .f32) (x2 : Vec Ideal S1x512 .f32) (p : Fin 1000) (j : Fin 512) :
    k3_pay1 x0 x1 x2 (ix2 p j) = dot3 (fun c => x0 (ix2 p c)) (fun c => x1 (ix2 c j)) + x2 (ix2 0 j) := by
  rw [pay_eq, densePay_apply _ _ dot_S1000x1024_S1024x512_S1000x512_1_0_0_1_n_n rfl (by decide)]

/-- The printed index maps over the grid: a node array's block index is (t, 0), the weight's or the bias row's (0, 0). -/
theorem idx_facts : ∀ t : Fin cfg3.N,
    win3_0.index t (0 : Fin 2) = t.val
    ∧ win3_0.index t (1 : Fin 2) = 0
    ∧ win3_3.index t (0 : Fin 2) = t.val
    ∧ win3_3.index t (1 : Fin 2) = 0
    ∧ win3_1.index t (0 : Fin 2) = 0
    ∧ win3_1.index t (1 : Fin 2) = 0
    ∧ win3_2.index t (0 : Fin 2) = 0
    ∧ win3_2.index t (1 : Fin 2) = 0 :=
  (by decide +kernel : ∀ t : Fin grid3.N, _)

theorem emb0 (t : Fin cfg3.N) (p : Fin 1000) (q : Fin 1024) (hr : t.val * 1000 + p.val < 20000) :
    ((cfg3.win 0).blk t).view.emb (ix2 p q) = ix2 ⟨t.val * 1000 + p.val, hr⟩ q := by
  obtain ⟨f0a, f0b, f3a, f3b, f1a, f1b, f2a, f2b⟩ := idx_facts t
  funext a; apply Fin.ext
  match a with
  | ⟨0, _⟩ => show win3_0.index t (0 : Fin 2) * 1000 + 1 * p.val = t.val * 1000 + p.val; rw [f0a]; omega
  | ⟨1, _⟩ => show win3_0.index t (1 : Fin 2) * 1024 + 1 * q.val = q.val; rw [f0b]; omega

theorem emb1 (t : Fin cfg3.N) (p : Fin 1024) (q : Fin 512) :
    ((cfg3.win 1).blk t).view.emb (ix2 p q) = ix2 p q := by
  obtain ⟨f0a, f0b, f3a, f3b, f1a, f1b, f2a, f2b⟩ := idx_facts t
  funext a; apply Fin.ext
  match a with
  | ⟨0, _⟩ => show win3_1.index t (0 : Fin 2) * 1024 + 1 * p.val = p.val; rw [f1a]; omega
  | ⟨1, _⟩ => show win3_1.index t (1 : Fin 2) * 512 + 1 * q.val = q.val; rw [f1b]; omega

theorem emb2 (t : Fin cfg3.N) (p : Fin 1) (q : Fin 512) :
    ((cfg3.win 2).blk t).view.emb (ix2 p q) = ix2 p q := by
  obtain ⟨f0a, f0b, f3a, f3b, f1a, f1b, f2a, f2b⟩ := idx_facts t
  funext a; apply Fin.ext
  match a with
  | ⟨0, _⟩ => show win3_2.index t (0 : Fin 2) * 1 + 1 * p.val = p.val; rw [f2a]; omega
  | ⟨1, _⟩ => show win3_2.index t (1 : Fin 2) * 512 + 1 * q.val = q.val; rw [f2b]; omega

theorem emb3 (t : Fin cfg3.N) (p : Fin 1000) (q : Fin 512) (hr : t.val * 1000 + p.val < 20000) :
    ((cfg3.win 3).blk t).view.emb (ix2 p q) = ix2 ⟨t.val * 1000 + p.val, hr⟩ q := by
  obtain ⟨f0a, f0b, f3a, f3b, f1a, f1b, f2a, f2b⟩ := idx_facts t
  funext a; apply Fin.ext
  match a with
  | ⟨0, _⟩ => show win3_3.index t (0 : Fin 2) * 1000 + 1 * p.val = t.val * 1000 + p.val; rw [f3a]; omega
  | ⟨1, _⟩ => show win3_3.index t (1 : Fin 2) * 512 + 1 * q.val = q.val; rw [f3b]; omega

/-- WHAT POINT t WRITES BACK is block t of the final layer's whole-array function of the arrays as the pipeline finds them. -/
theorem flushed_eq (c : Dev nD) (t : Fin cfg3.N) :
    (dat3 V c).flushed 3 t = ((cfg3.win 3).blk t).view.read (Elt Ideal) (kDense (V c main_v48) (V c main_arg11) (V c main_v49)) := by
  show (cfg3.win 3).cut (grid3.coords t) ((dat3 V c).after 3 t) = _
  rw [after3_3]
  unfold out3_3
  rw [View.canon_unit_zero hz]
  simp only [View.ld_unit_zero (S := S1000x1024) hz, View.ld_unit_zero (S := S1024x512) hz, View.ld_unit_zero (S := S1x512) hz, View.ld_unit_zero (S := S1000x512) hz]
  funext y
  obtain ⟨p, j, rfl⟩ : ∃ (p : Fin 1000) (j : Fin 512), y = ix2 p j := ⟨y 0, y 1, eq_ix2 y⟩
  have ht : t.val < 20 := t.isLt
  have hr : t.val * 1000 + p.val < 20000 := by have := p.isLt; omega
  have e0 : ∀ q, iblk3 V c 0 t (ix2 p q) = V c main_v48 (ix2 ⟨t.val * 1000 + p.val, hr⟩ q) :=
    fun q => congrArg (V c main_v48) (emb0 t p q hr)
  have e1 : ∀ q, iblk3 V c 1 t (ix2 q j) = V c main_arg11 (ix2 q j) :=
    fun q => congrArg (V c main_arg11) (emb1 t q j)
  have e2 : iblk3 V c 2 t (ix2 0 j) = V c main_v49 (ix2 0 j) :=
    congrArg (V c main_v49) (emb2 t 0 j)
  show k3_pay1 (iblk3 V c 0 t) (iblk3 V c 1 t) (iblk3 V c 2 t) (ix2 p j)
      = (kDense (V c main_v48) (V c main_arg11) (V c main_v49)) (((cfg3.win 3).blk t).view.emb (ix2 p j))
  rw [pay_at, emb3 t p j hr]
  show _ = dot3 (fun q => V c main_v48 (ix2 ⟨t.val * 1000 + p.val, hr⟩ q)) (fun q => V c main_arg11 (ix2 q j)) + V c main_v49 (ix2 0 j)
  rw [funext e0, funext e1, e2]

/-- An index of the output array is in point t's block iff each coordinate is in the block's range. -/
theorem mem_blk (t : Fin cfg3.N) (i : S20000x512.Idx) :
    i ∈ ((cfg3.win 3).blk t).view.set ↔ ∀ a : Fin 2, win3_3.index t a * S1000x512.size a ≤ (i a).val ∧ (i a).val < win3_3.index t a * S1000x512.size a + S1000x512.size a := by
  show i ∈ ((View.whole main_v50).slice (win3_3.rect t)).set ↔ _
  rw [View.set_slice_whole, Rect.mem_set_unit]
  exact Iff.rfl

/-- Row r of the output is written by point r / 1000: the blocks cover the array. -/
theorem cover (i : S20000x512.Idx) : ∃ t : Fin cfg3.N, (cfg3.win 3).flush t = true ∧ i ∈ ((cfg3.win 3).blk t).view.set := by
  have hi0 : (i 0).val < 20000 := (i 0).isLt
  have hi1 : (i 1).val < 512 := (i 1).isLt
  have hq : (i 0).val / 1000 < 20 := by omega
  refine ⟨⟨(i 0).val / 1000, hq⟩, flush3_3 _, ?_⟩
  obtain ⟨f0a, f0b, f3a, f3b, f1a, f1b, f2a, f2b⟩ := idx_facts ⟨(i 0).val / 1000, hq⟩
  rw [mem_blk]
  intro a
  match a with
  | ⟨0, _⟩ =>
    show win3_3.index ⟨(i 0).val / 1000, hq⟩ (0 : Fin 2) * 1000 ≤ (i 0).val ∧ (i 0).val < win3_3.index ⟨(i 0).val / 1000, hq⟩ (0 : Fin 2) * 1000 + 1000
    rw [f3a]; show (i 0).val / 1000 * 1000 ≤ (i 0).val ∧ (i 0).val < (i 0).val / 1000 * 1000 + 1000; omega
  | ⟨1, _⟩ =>
    show win3_3.index ⟨(i 0).val / 1000, hq⟩ (1 : Fin 2) * 512 ≤ (i 1).val ∧ (i 1).val < win3_3.index ⟨(i 0).val / 1000, hq⟩ (1 : Fin 2) * 512 + 512
    rw [f3b]; omega

/-- THE OUTPUT ARRAY after the pipeline: the final layer's whole-array function of the arrays as the pipeline finds them. -/
theorem final (c : Dev nD) : (dat3 V c).arrAt 3 cfg3.N = (kDense (V c main_v48) (V c main_arg11) (V c main_v49)) :=
  (dat3 V c).arrAt_eq_of_cover 3 _ (fun t _ => flushed_eq V c t) cover

end Cert.KernelIdeal.Region3

end
-- ==== Proof.KChain.lean ====
/-
  What the blockwise program's buffers hold at each boundary, as functions of the arguments.

  The program alternates stretches of whole-array operations with four block pipelines.  A stretch computes the
  edge list's two rows, the per-node factor 1 / max(count, 1) (once), and before each layer the summed neighbour
  rows (a gather of the features along the source row, scatter-added along the destination row); a pipeline
  replaces its output array by the layer's whole-array function of its input arrays (Region0 … Region3) and
  leaves every other buffer alone.  Following the contents boundary by boundary gives the result buffer as the four
  layers composed (`OUT`), each layer reading the SAME edge rows and the SAME factor.
-/
import proofs.«100436_j44839458570700_2_alg».proof.Proof.Patched.KernelIdealFrame
import proofs.«100436_j44839458570700_2_alg».proof.Proof.Layer
import proofs.«100436_j44839458570700_2_alg».proof.Proof.K0
import proofs.«100436_j44839458570700_2_alg».proof.Proof.K1
import proofs.«100436_j44839458570700_2_alg».proof.Proof.K2
import proofs.«100436_j44839458570700_2_alg».proof.Proof.K3

set_option maxRecDepth 16384

noncomputable section

namespace Cert.KernelIdeal.Chain

open Cert.KernelIdeal Cert.KernelIdeal.Gen Cert.Sage
open Idealize.ShloMosaic Idealize.ShloMosaic.ValueIdx Idealize.ShloMosaic.TcCoe Idealize.SL.Sem
open Idealize.ShloMosaic.Pipeline (Dat Cfg Window)

/-! ## The whole-array operations between the pipelines -/

/-- The edge list's source row and destination row, flattened. -/
abbrev srcT (e : IVec S2x320000 32) : IVec S320000 32 :=
  shapeCast _ (extractStridedSlice S1x320000 ![0, 0] e slices_S2x320000_S1x320000_0_0) shapeCasts_S1x320000_S320000
abbrev dstT (e : IVec S2x320000 32) : IVec S320000 32 :=
  shapeCast _ (extractStridedSlice S1x320000 ![1, 0] e slices_S2x320000_S1x320000_1_0) shapeCasts_S1x320000_S320000

/-- A flat index row as one index vector per edge. -/
abbrev idxOf (v : IVec S320000 32) : IVec S320000x1 32 := broadcastInDim S320000x1 ![0] bcast_S320000_S320000x1_0 v

/-- A negative index counted from the end. -/
abbrev wrap (s : IVec S320000 32) : IVec S320000 32 :=
  select (cmpi .slt s (broadcastInDim S320000 ![] bcast_S_S320000 (constantI S_ 32 0#32)))
    (addi s (broadcastInDim S320000 ![] bcast_S_S320000 (constantI S_ 32 20000#32))) s

/-- The summed neighbour rows: the features gathered along the source row, scatter-added along the destination row. -/
abbrev aggOp256 (dst src : IVec S320000 32) (h : FVec Ideal S20000x256 .f32) : FVec Ideal S20000x256 .f32 :=
  Host.scatterAdd scatter_S20000x256_S320000x1_S320000x256_1_0_0_1
    (broadcastInDim S20000x256 ![] bcast_S_S20000x256 (constant S_ .f32 0x00000000#32)) (idxOf dst)
    (Host.gather gather_S20000x256_S320000x1_S320000x256_1_0_n_n_0_1_1256 h (idxOf (wrap src)))
abbrev aggOp512 (dst src : IVec S320000 32) (h : FVec Ideal S20000x512 .f32) : FVec Ideal S20000x512 .f32 :=
  Host.scatterAdd scatter_S20000x512_S320000x1_S320000x512_1_0_0_1
    (broadcastInDim S20000x512 ![] bcast_S_S20000x512 (constant S_ .f32 0x00000000#32)) (idxOf dst)
    (Host.gather gather_S20000x512_S320000x1_S320000x512_1_0_n_n_0_1_1512 h (idxOf (wrap src)))

/-- The in-degree of every node, clamped below by 1. -/
abbrev cntMax (dst : IVec S320000 32) : FVec Ideal S20000 .f32 :=
  maximumf (Host.scatterAdd scatter_S20000_S320000x1_S320000_n_0_0_1
      (broadcastInDim S20000 ![] bcast_S_S20000 (constant S_ .f32 0x00000000#32)) (idxOf dst)
      (broadcastInDim S320000 ![] bcast_S_S320000 (constant S_ .f32 0x3F800000#32)))
    (broadcastInDim S20000 ![] bcast_S_S20000 (constant S_ .f32 0x3F800000#32))

/-- The per-node factor 1 / max(count, 1), as a column. -/
abbrev invOp (dst : IVec S320000 32) : FVec Ideal S20000x1 .f32 :=
  shapeCast _ (Host.divf (broadcastInDim S20000 ![] bcast_S_S20000 (constant S_ .f32 0x3F800000#32)) (cntMax dst))
    shapeCasts_S20000_S20000x1

/-- A bias vector as a one-row matrix. -/
abbrev biasRow512 (b : FVec Ideal S512 .f32) : FVec Ideal S1x512 .f32 := shapeCast _ b shapeCasts_S512_S1x512
abbrev biasRow1024 (b : FVec Ideal S1024 .f32) : FVec Ideal S1x1024 .f32 := shapeCast _ b shapeCasts_S1024_S1x1024

/-! ## The layers as functions of arrays -/

/-- The first layer (256 → 512 features) on an edge list, features, weights and bias. -/
def L1 (e : IVec S2x320000 32) (x : FVec Ideal S20000x256 .f32) (wl : FVec Ideal S256x512 .f32) (bl : FVec Ideal S512 .f32)
    (wr : FVec Ideal S256x512 .f32) : FVec Ideal S20000x512 .f32 :=
  kSage (Scalar.ofBits (F := Ideal) .f32 0x00000000#32) (aggOp256 (dstT e) (srcT e) x) (invOp (dstT e)) x wl wr (biasRow512 bl)
/-- The second layer (512 → 512). -/
def L2 (e : IVec S2x320000 32) (h : FVec Ideal S20000x512 .f32) (wl : FVec Ideal S512x512 .f32) (bl : FVec Ideal S512 .f32)
    (wr : FVec Ideal S512x512 .f32) : FVec Ideal S20000x512 .f32 :=
  kSage (Scalar.ofBits (F := Ideal) .f32 0x00000000#32) (aggOp512 (dstT e) (srcT e) h) (invOp (dstT e)) h wl wr (biasRow512 bl)
/-- The third layer (512 → 1024). -/
def L3 (e : IVec S2x320000 32) (h : FVec Ideal S20000x512 .f32) (wl : FVec Ideal S512x1024 .f32) (bl : FVec Ideal S1024 .f32)
    (wr : FVec Ideal S512x1024 .f32) : FVec Ideal S20000x1024 .f32 :=
  kSage (Scalar.ofBits (F := Ideal) .f32 0x00000000#32) (aggOp512 (dstT e) (srcT e) h) (invOp (dstT e)) h wl wr (biasRow1024 bl)
/-- The final linear layer (1024 → 512). -/
def LD (h : FVec Ideal S20000x1024 .f32) (w : FVec Ideal S1024x512 .f32) (b : FVec Ideal S512 .f32) : FVec Ideal S20000x512 .f32 :=
  kDense h w (biasRow512 b)

variable (m : (ℓ : Loc nD τ sig) → Buf (Elt Ideal) ℓ) (ρ : Dev nD → PrngReg) (c : Dev nD)

/-! ## The layers composed on the arguments -/

def H1 : FVec Ideal S20000x512 .f32 := L1 (m ((c : Thread nD τ).loc main_arg1)) (m ((c : Thread nD τ).loc main_arg0)) (m ((c : Thread nD τ).loc main_arg2)) (m ((c : Thread nD τ).loc main_arg3)) (m ((c : Thread nD τ).loc main_arg4))
def H2 : FVec Ideal S20000x512 .f32 := L2 (m ((c : Thread nD τ).loc main_arg1)) (H1 m c) (m ((c : Thread nD τ).loc main_arg5)) (m ((c : Thread nD τ).loc main_arg6)) (m ((c : Thread nD τ).loc main_arg7))
def H3 : FVec Ideal S20000x1024 .f32 := L3 (m ((c : Thread nD τ).loc main_arg1)) (H2 m c) (m ((c : Thread nD τ).loc main_arg8)) (m ((c : Thread nD τ).loc main_arg9)) (m ((c : Thread nD τ).loc main_arg10))
/-- The program's result. -/
def OUT : FVec Ideal S20000x512 .f32 := LD (H3 m c) (m ((c : Thread nD τ).loc main_arg11)) (m ((c : Thread nD τ).loc main_arg12))

/-! ## The contents, boundary by boundary -/

theorem W1_v1 : W1 m ρ c (Proc.devRef .tc main_v1) = (srcT (m ((c : Thread nD τ).loc main_arg1))) := by
  have h : W1 m ρ c (Proc.devRef .tc main_v1) = (srcT (m ((c : Thread nD τ).loc main_arg1))) := by
    show StableHlo.after hostOps0 _ (Proc.devRef .tc main_v1) = _
    after_results_simp <;> rfl
  exact h
theorem W1_v3 : W1 m ρ c (Proc.devRef .tc main_v3) = (dstT (m ((c : Thread nD τ).loc main_arg1))) := by
  have h : W1 m ρ c (Proc.devRef .tc main_v3) = (dstT (m ((c : Thread nD τ).loc main_arg1))) := by
    show StableHlo.after hostOps0 _ (Proc.devRef .tc main_v3) = _
    after_results_simp <;> rfl
  exact h
theorem W1_v12 : W1 m ρ c (Proc.devRef .tc main_v12) = (invOp (dstT (m ((c : Thread nD τ).loc main_arg1)))) := by
  have h : W1 m ρ c (Proc.devRef .tc main_v12) = (invOp (dstT (m ((c : Thread nD τ).loc main_arg1)))) := by
    show StableHlo.after hostOps0 _ (Proc.devRef .tc main_v12) = _
    after_results_simp <;> rfl
  exact h
theorem W1_v22 : W1 m ρ c (Proc.devRef .tc main_v22) = (aggOp256 (dstT (m ((c : Thread nD τ).loc main_arg1))) (srcT (m ((c : Thread nD τ).loc main_arg1))) (m ((c : Thread nD τ).loc main_arg0))) := by
  have h : W1 m ρ c (Proc.devRef .tc main_v22) = (aggOp256 (dstT (m ((c : Thread nD τ).loc main_arg1))) (srcT (m ((c : Thread nD τ).loc main_arg1))) (m ((c : Thread nD τ).loc main_arg0))) := by
    show StableHlo.after hostOps0 _ (Proc.devRef .tc main_v22) = _
    after_results_simp <;> rfl
  exact h
theorem W1_v23 : W1 m ρ c (Proc.devRef .tc main_v23) = (biasRow512 (m ((c : Thread nD τ).loc main_arg3))) := by
  have h : W1 m ρ c (Proc.devRef .tc main_v23) = (biasRow512 (m ((c : Thread nD τ).loc main_arg3))) := by
    show StableHlo.after hostOps0 _ (Proc.devRef .tc main_v23) = _
    after_results_simp <;> rfl
  exact h
theorem W1_arg0 : W1 m ρ c (Proc.devRef .tc main_arg0) = (m ((c : Thread nD τ).loc main_arg0)) := by
  have h : W1 m ρ c (Proc.devRef .tc main_arg0) = (m ((c : Thread nD τ).loc main_arg0)) := by
    show StableHlo.after hostOps0 _ (Proc.devRef .tc main_arg0) = _
    after_results_simp <;> rfl
  exact h
theorem W1_arg2 : W1 m ρ c (Proc.devRef .tc main_arg2) = (m ((c : Thread nD τ).loc main_arg2)) := by
  have h : W1 m ρ c (Proc.devRef .tc main_arg2) = (m ((c : Thread nD τ).loc main_arg2)) := by
    show StableHlo.after hostOps0 _ (Proc.devRef .tc main_arg2) = _
    after_results_simp <;> rfl
  exact h
theorem W1_arg4 : W1 m ρ c (Proc.devRef .tc main_arg4) = (m ((c : Thread nD τ).loc main_arg4)) := by
  have h : W1 m ρ c (Proc.devRef .tc main_arg4) = (m ((c : Thread nD τ).loc main_arg4)) := by
    show StableHlo.after hostOps0 _ (Proc.devRef .tc main_arg4) = _
    after_results_simp <;> rfl
  exact h
theorem W1_arg5 : W1 m ρ c (Proc.devRef .tc main_arg5) = (m ((c : Thread nD τ).loc main_arg5)) := by
  have h : W1 m ρ c (Proc.devRef .tc main_arg5) = (m ((c : Thread nD τ).loc main_arg5)) := by
    show StableHlo.after hostOps0 _ (Proc.devRef .tc main_arg5) = _
    after_results_simp <;> rfl
  exact h
theorem W1_arg6 : W1 m ρ c (Proc.devRef .tc main_arg6) = (m ((c : Thread nD τ).loc main_arg6)) := by
  have h : W1 m ρ c (Proc.devRef .tc main_arg6) = (m ((c : Thread nD τ).loc main_arg6)) := by
    show StableHlo.after hostOps0 _ (Proc.devRef .tc main_arg6) = _
    after_results_simp <;> rfl
  exact h
theorem W1_arg7 : W1 m ρ c (Proc.devRef .tc main_arg7) = (m ((c : Thread nD τ).loc main_arg7)) := by
  have h : W1 m ρ c (Proc.devRef .tc main_arg7) = (m ((c : Thread nD τ).loc main_arg7)) := by
    show StableHlo.after hostOps0 _ (Proc.devRef .tc main_arg7) = _
    after_results_simp <;> rfl
  exact h
theorem W1_arg8 : W1 m ρ c (Proc.devRef .tc main_arg8) = (m ((c : Thread nD τ).loc main_arg8)) := by
  have h : W1 m ρ c (Proc.devRef .tc main_arg8) = (m ((c : Thread nD τ).loc main_arg8)) := by
    show StableHlo.after hostOps0 _ (Proc.devRef .tc main_arg8) = _
    after_results_simp <;> rfl
  exact h
theorem W1_arg9 : W1 m ρ c (Proc.devRef .tc main_arg9) = (m ((c : Thread nD τ).loc main_arg9)) := by
  have h : W1 m ρ c (Proc.devRef .tc main_arg9) = (m ((c : Thread nD τ).loc main_arg9)) := by
    show StableHlo.after hostOps0 _ (Proc.devRef .tc main_arg9) = _
    after_results_simp <;> rfl
  exact h
theorem W1_arg10 : W1 m ρ c (Proc.devRef .tc main_arg10) = (m ((c : Thread nD τ).loc main_arg10)) := by
  have h : W1 m ρ c (Proc.devRef .tc main_arg10) = (m ((c : Thread nD τ).loc main_arg10)) := by
    show StableHlo.after hostOps0 _ (Proc.devRef .tc main_arg10) = _
    after_results_simp <;> rfl
  exact h
theorem W1_arg11 : W1 m ρ c (Proc.devRef .tc main_arg11) = (m ((c : Thread nD τ).loc main_arg11)) := by
  have h : W1 m ρ c (Proc.devRef .tc main_arg11) = (m ((c : Thread nD τ).loc main_arg11)) := by
    show StableHlo.after hostOps0 _ (Proc.devRef .tc main_arg11) = _
    after_results_simp <;> rfl
  exact h
theorem W1_arg12 : W1 m ρ c (Proc.devRef .tc main_arg12) = (m ((c : Thread nD τ).loc main_arg12)) := by
  have h : W1 m ρ c (Proc.devRef .tc main_arg12) = (m ((c : Thread nD τ).loc main_arg12)) := by
    show StableHlo.after hostOps0 _ (Proc.devRef .tc main_arg12) = _
    after_results_simp <;> rfl
  exact h
theorem W2_v24 : W2 m ρ c (Proc.devRef .tc main_v24) = (H1 m c) := by
  refine ((W2_arr m ρ c 6).trans (Region0.final (V1 m ρ) c)).trans ?_
  show kSage (Scalar.ofBits (F := Ideal) .f32 0x00000000#32) (W1 m ρ c (Proc.devRef .tc main_v22)) (W1 m ρ c (Proc.devRef .tc main_v12)) (W1 m ρ c (Proc.devRef .tc main_arg0)) (W1 m ρ c (Proc.devRef .tc main_arg2)) (W1 m ρ c (Proc.devRef .tc main_arg4)) (W1 m ρ c (Proc.devRef .tc main_v23)) = _
  rw [W1_v22 m ρ c, W1_v12 m ρ c, W1_arg0 m ρ c, W1_arg2 m ρ c, W1_arg4 m ρ c, W1_v23 m ρ c]
  rfl
theorem W2_v12 : W2 m ρ c (Proc.devRef .tc main_v12) = (invOp (dstT (m ((c : Thread nD τ).loc main_arg1)))) :=
  ((W2_arr m ρ c 1).trans (((dat0 (V1 m ρ) c).arrAt_in 1 rfl _).trans (A_eq0 (V1 m ρ) c 1))).trans (W1_v12 m ρ c)
theorem W2_v1 : W2 m ρ c (Proc.devRef .tc main_v1) = (srcT (m ((c : Thread nD τ).loc main_arg1))) :=
  (W2_of_ne m ρ c main_v1 (by decide)).trans (W1_v1 m ρ c)
theorem W2_v3 : W2 m ρ c (Proc.devRef .tc main_v3) = (dstT (m ((c : Thread nD τ).loc main_arg1))) :=
  (W2_of_ne m ρ c main_v3 (by decide)).trans (W1_v3 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)
theorem W3_v34 : W3 m ρ c (Proc.devRef .tc main_v34) = (aggOp512 (dstT (m ((c : Thread nD τ).loc main_arg1))) (srcT (m ((c : Thread nD τ).loc main_arg1))) (H1 m c)) := by
  have h : W3 m ρ c (Proc.devRef .tc main_v34) = aggOp512 (W2 m ρ c (Proc.devRef .tc main_v3)) (W2 m ρ c (Proc.devRef .tc main_v1)) (W2 m ρ c (Proc.devRef .tc main_v24)) := by
    show StableHlo.after hostOps1 _ (Proc.devRef .tc main_v34) = _
    after_results_simp <;> rfl
  rw [h, W2_v3 m ρ c, W2_v1 m ρ c, W2_v24 m ρ c]
theorem W3_v35 : W3 m ρ c (Proc.devRef .tc main_v35) = (biasRow512 (m ((c : Thread nD τ).loc main_arg6))) := by
  have h : W3 m ρ c (Proc.devRef .tc main_v35) = biasRow512 (W2 m ρ c (Proc.devRef .tc main_arg6)) := by
    show StableHlo.after hostOps1 _ (Proc.devRef .tc main_v35) = _
    after_results_simp <;> rfl
  rw [h, W2_arg6 m ρ c]
theorem W3_v12 : W3 m ρ c (Proc.devRef .tc main_v12) = (invOp (dstT (m ((c : Thread nD τ).loc main_arg1)))) := by
  have h : W3 m ρ c (Proc.devRef .tc main_v12) = W2 m ρ c (Proc.devRef .tc main_v12) := by
    show StableHlo.after hostOps1 _ (Proc.devRef .tc main_v12) = _
    after_results_simp <;> rfl
  exact h.trans (W2_v12 m ρ c)
theorem W3_v24 : W3 m ρ c (Proc.devRef .tc main_v24) = (H1 m c) := by
  have h : W3 m ρ c (Proc.devRef .tc main_v24) = W2 m ρ c (Proc.devRef .tc main_v24) := by
    show StableHlo.after hostOps1 _ (Proc.devRef .tc main_v24) = _
    after_results_simp <;> rfl
  exact h.trans (W2_v24 m ρ c)
theorem W3_v1 : W3 m ρ c (Proc.devRef .tc main_v1) = (srcT (m ((c : Thread nD τ).loc main_arg1))) := by
  have h : W3 m ρ c (Proc.devRef .tc main_v1) = W2 m ρ c (Proc.devRef .tc main_v1) := by
    show StableHlo.after hostOps1 _ (Proc.devRef .tc main_v1) = _
    after_results_simp <;> rfl
  exact h.trans (W2_v1 m ρ c)
theorem W3_v3 : W3 m ρ c (Proc.devRef .tc main_v3) = (dstT (m ((c : Thread nD τ).loc main_arg1))) := by
  have h : W3 m ρ c (Proc.devRef .tc main_v3) = W2 m ρ c (Proc.devRef .tc main_v3) := by
    show StableHlo.after hostOps1 _ (Proc.devRef .tc main_v3) = _
    after_results_simp <;> rfl
  exact h.trans (W2_v3 m ρ c)
theorem W3_arg5 : W3 m ρ c (Proc.devRef .tc main_arg5) = (m ((c : Thread nD τ).loc main_arg5)) := by
  have h : W3 m ρ c (Proc.devRef .tc main_arg5) = W2 m ρ c (Proc.devRef .tc main_arg5) := by
    show StableHlo.after hostOps1 _ (Proc.devRef .tc main_arg5) = _
    after_results_simp <;> rfl
  exact h.trans (W2_arg5 m ρ c)
theorem W3_arg7 : W3 m ρ c (Proc.devRef .tc main_arg7) = (m ((c : Thread nD τ).loc main_arg7)) := by
  have h : W3 m ρ c (Proc.devRef .tc main_arg7) = W2 m ρ c (Proc.devRef .tc main_arg7) := by
    show StableHlo.after hostOps1 _ (Proc.devRef .tc main_arg7) = _
    after_results_simp <;> rfl
  exact h.trans (W2_arg7 m ρ c)
theorem W3_arg8 : W3 m ρ c (Proc.devRef .tc main_arg8) = (m ((c : Thread nD τ).loc main_arg8)) := by
  have h : W3 m ρ c (Proc.devRef .tc main_arg8) = W2 m ρ c (Proc.devRef .tc main_arg8) := by
    show StableHlo.after hostOps1 _ (Proc.devRef .tc main_arg8) = _
    after_results_simp <;> rfl
  exact h.trans (W2_arg8 m ρ c)
theorem W3_arg9 : W3 m ρ c (Proc.devRef .tc main_arg9) = (m ((c : Thread nD τ).loc main_arg9)) := by
  have h : W3 m ρ c (Proc.devRef .tc main_arg9) = W2 m ρ c (Proc.devRef .tc main_arg9) := by
    show StableHlo.after hostOps1 _ (Proc.devRef .tc main_arg9) = _
    after_results_simp <;> rfl
  exact h.trans (W2_arg9 m ρ c)
theorem W3_arg10 : W3 m ρ c (Proc.devRef .tc main_arg10) = (m ((c : Thread nD τ).loc main_arg10)) := by
  have h : W3 m ρ c (Proc.devRef .tc main_arg10) = W2 m ρ c (Proc.devRef .tc main_arg10) := by
    show StableHlo.after hostOps1 _ (Proc.devRef .tc main_arg10) = _
    after_results_simp <;> rfl
  exact h.trans (W2_arg10 m ρ c)
theorem W3_arg11 : W3 m ρ c (Proc.devRef .tc main_arg11) = (m ((c : Thread nD τ).loc main_arg11)) := by
  have h : W3 m ρ c (Proc.devRef .tc main_arg11) = W2 m ρ c (Proc.devRef .tc main_arg11) := by
    show StableHlo.after hostOps1 _ (Proc.devRef .tc main_arg11) = _
    after_results_simp <;> rfl
  exact h.trans (W2_arg11 m ρ c)
theorem W3_arg12 : W3 m ρ c (Proc.devRef .tc main_arg12) = (m ((c : Thread nD τ).loc main_arg12)) := by
  have h : W3 m ρ c (Proc.devRef .tc main_arg12) = W2 m ρ c (Proc.devRef .tc main_arg12) := by
    show StableHlo.after hostOps1 _ (Proc.devRef .tc main_arg12) = _
    after_results_simp <;> rfl
  exact h.trans (W2_arg12 m ρ c)
theorem W4_v36 : W4 m ρ c (Proc.devRef .tc main_v36) = (H2 m c) := by
  refine ((W4_arr m ρ c 6).trans (Region1.final (V3 m ρ) c)).trans ?_
  show kSage (Scalar.ofBits (F := Ideal) .f32 0x00000000#32) (W3 m ρ c (Proc.devRef .tc main_v34)) (W3 m ρ c (Proc.devRef .tc main_v12)) (W3 m ρ c (Proc.devRef .tc main_v24)) (W3 m ρ c (Proc.devRef .tc main_arg5)) (W3 m ρ c (Proc.devRef .tc main_arg7)) (W3 m ρ c (Proc.devRef .tc main_v35)) = _
  rw [W3_v34 m ρ c, W3_v12 m ρ c, W3_v24 m ρ c, W3_arg5 m ρ c, W3_arg7 m ρ c, W3_v35 m ρ c]
  rfl
theorem W4_v12 : W4 m ρ c (Proc.devRef .tc main_v12) = (invOp (dstT (m ((c : Thread nD τ).loc main_arg1)))) :=
  ((W4_arr m ρ c 1).trans (((dat1 (V3 m ρ) c).arrAt_in 1 rfl _).trans (A_eq1 (V3 m ρ) c 1))).trans (W3_v12 m ρ c)
theorem W4_v1 : W4 m ρ c (Proc.devRef .tc main_v1) = (srcT (m ((c : Thread nD τ).loc main_arg1))) :=
  (W4_of_ne m ρ c main_v1 (by decide)).trans (W3_v1 m ρ c)
theorem W4_v3 : W4 m ρ c (Proc.devRef .tc main_v3) = (dstT (m ((c : Thread nD τ).loc main_arg1))) :=
  (W4_of_ne m ρ c main_v3 (by decide)).trans (W3_v3 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)
theorem W5_v46 : W5 m ρ c (Proc.devRef .tc main_v46) = (aggOp512 (dstT (m ((c : Thread nD τ).loc main_arg1))) (srcT (m ((c : Thread nD τ).loc main_arg1))) (H2 m c)) := by
  have h : W5 m ρ c (Proc.devRef .tc main_v46) = aggOp512 (W4 m ρ c (Proc.devRef .tc main_v3)) (W4 m ρ c (Proc.devRef .tc main_v1)) (W4 m ρ c (Proc.devRef .tc main_v36)) := by
    show StableHlo.after hostOps2 _ (Proc.devRef .tc main_v46) = _
    after_results_simp <;> rfl
  rw [h, W4_v3 m ρ c, W4_v1 m ρ c, W4_v36 m ρ c]
theorem W5_v47 : W5 m ρ c (Proc.devRef .tc main_v47) = (biasRow1024 (m ((c : Thread nD τ).loc main_arg9))) := by
  have h : W5 m ρ c (Proc.devRef .tc main_v47) = biasRow1024 (W4 m ρ c (Proc.devRef .tc main_arg9)) := by
    show StableHlo.after hostOps2 _ (Proc.devRef .tc main_v47) = _
    after_results_simp <;> rfl
  rw [h, W4_arg9 m ρ c]
theorem W5_v12 : W5 m ρ c (Proc.devRef .tc main_v12) = (invOp (dstT (m ((c : Thread nD τ).loc main_arg1)))) := by
  have h : W5 m ρ c (Proc.devRef .tc main_v12) = W4 m ρ c (Proc.devRef .tc main_v12) := by
    show StableHlo.after hostOps2 _ (Proc.devRef .tc main_v12) = _
    after_results_simp <;> rfl
  exact h.trans (W4_v12 m ρ c)
theorem W5_v36 : W5 m ρ c (Proc.devRef .tc main_v36) = (H2 m c) := by
  have h : W5 m ρ c (Proc.devRef .tc main_v36) = W4 m ρ c (Proc.devRef .tc main_v36) := by
    show StableHlo.after hostOps2 _ (Proc.devRef .tc main_v36) = _
    after_results_simp <;> rfl
  exact h.trans (W4_v36 m ρ c)
theorem W5_arg8 : W5 m ρ c (Proc.devRef .tc main_arg8) = (m ((c : Thread nD τ).loc main_arg8)) := by
  have h : W5 m ρ c (Proc.devRef .tc main_arg8) = W4 m ρ c (Proc.devRef .tc main_arg8) := by
    show StableHlo.after hostOps2 _ (Proc.devRef .tc main_arg8) = _
    after_results_simp <;> rfl
  exact h.trans (W4_arg8 m ρ c)
theorem W5_arg10 : W5 m ρ c (Proc.devRef .tc main_arg10) = (m ((c : Thread nD τ).loc main_arg10)) := by
  have h : W5 m ρ c (Proc.devRef .tc main_arg10) = W4 m ρ c (Proc.devRef .tc main_arg10) := by
    show StableHlo.after hostOps2 _ (Proc.devRef .tc main_arg10) = _
    after_results_simp <;> rfl
  exact h.trans (W4_arg10 m ρ c)
theorem W5_arg11 : W5 m ρ c (Proc.devRef .tc main_arg11) = (m ((c : Thread nD τ).loc main_arg11)) := by
  have h : W5 m ρ c (Proc.devRef .tc main_arg11) = W4 m ρ c (Proc.devRef .tc main_arg11) := by
    show StableHlo.after hostOps2 _ (Proc.devRef .tc main_arg11) = _
    after_results_simp <;> rfl
  exact h.trans (W4_arg11 m ρ c)
theorem W5_arg12 : W5 m ρ c (Proc.devRef .tc main_arg12) = (m ((c : Thread nD τ).loc main_arg12)) := by
  have h : W5 m ρ c (Proc.devRef .tc main_arg12) = W4 m ρ c (Proc.devRef .tc main_arg12) := by
    show StableHlo.after hostOps2 _ (Proc.devRef .tc main_arg12) = _
    after_results_simp <;> rfl
  exact h.trans (W4_arg12 m ρ c)
theorem W6_v48 : W6 m ρ c (Proc.devRef .tc main_v48) = (H3 m c) := by
  refine ((W6_arr m ρ c 6).trans (Region2.final (V5 m ρ) c)).trans ?_
  show kSage (Scalar.ofBits (F := Ideal) .f32 0x00000000#32) (W5 m ρ c (Proc.devRef .tc main_v46)) (W5 m ρ c (Proc.devRef .tc main_v12)) (W5 m ρ c (Proc.devRef .tc main_v36)) (W5 m ρ c (Proc.devRef .tc main_arg8)) (W5 m ρ c (Proc.devRef .tc main_arg10)) (W5 m ρ c (Proc.devRef .tc main_v47)) = _
  rw [W5_v46 m ρ c, W5_v12 m ρ c, W5_v36 m ρ c, W5_arg8 m ρ c, W5_arg10 m ρ c, W5_v47 m ρ c]
  rfl
theorem W6_arg11 : W6 m ρ c (Proc.devRef .tc main_arg11) = (m ((c : Thread nD τ).loc main_arg11)) :=
  (W6_of_ne m ρ c main_arg11 (by decide)).trans (W5_arg11 m ρ c)
theorem W6_arg12 : W6 m ρ c (Proc.devRef .tc main_arg12) = (m ((c : Thread nD τ).loc main_arg12)) :=
  (W6_of_ne m ρ c main_arg12 (by decide)).trans (W5_arg12 m ρ c)
theorem W7_v49 : W7 m ρ c (Proc.devRef .tc main_v49) = (biasRow512 (m ((c : Thread nD τ).loc main_arg12))) := by
  have h : W7 m ρ c (Proc.devRef .tc main_v49) = biasRow512 (W6 m ρ c (Proc.devRef .tc main_arg12)) := by
    show StableHlo.after hostOps3 _ (Proc.devRef .tc main_v49) = _
    after_results_simp <;> rfl
  rw [h, W6_arg12 m ρ c]
theorem W7_v48 : W7 m ρ c (Proc.devRef .tc main_v48) = (H3 m c) := by
  have h : W7 m ρ c (Proc.devRef .tc main_v48) = W6 m ρ c (Proc.devRef .tc main_v48) := by
    show StableHlo.after hostOps3 _ (Proc.devRef .tc main_v48) = _
    after_results_simp <;> rfl
  exact h.trans (W6_v48 m ρ c)
theorem W7_arg11 : W7 m ρ c (Proc.devRef .tc main_arg11) = (m ((c : Thread nD τ).loc main_arg11)) := by
  have h : W7 m ρ c (Proc.devRef .tc main_arg11) = W6 m ρ c (Proc.devRef .tc main_arg11) := by
    show StableHlo.after hostOps3 _ (Proc.devRef .tc main_arg11) = _
    after_results_simp <;> rfl
  exact h.trans (W6_arg11 m ρ c)
theorem W8_v50 : W8 m ρ c (Proc.devRef .tc main_v50) = (OUT m c) := by
  refine ((W8_arr m ρ c 3).trans (Region3.final (V7 m ρ) c)).trans ?_
  show kDense (W7 m ρ c (Proc.devRef .tc main_v48)) (W7 m ρ c (Proc.devRef .tc main_arg11)) (W7 m ρ c (Proc.devRef .tc main_v49)) = _
  rw [W7_v48 m ρ c, W7_arg11 m ρ c, W7_v49 m ρ c]
  rfl

/-- The result buffer at the last boundary is the four layers composed. -/
theorem result : W8 m ρ c (Proc.devRef .tc main_v50) = OUT m c := W8_v50 m ρ c

end Cert.KernelIdeal.Chain

end
-- ==== Proof.RNet.lean ====
/-
  The whole-array program's result as four layers composed.

  Its run ends with the result at one long term of the arguments.  That term is, read from the inside out, three
  mean-aggregation layers and a final linear layer, each aggregation layer reading the same two rows of the edge list
  and the same clamped in-degree; here it is folded into those four functions of arrays (`L1`, `L2`, `L3`, `LD`, over
  Layer.lean's `rSage` / `rDense`).
-/
import proofs.«100436_j44839458570700_2_alg».proof.Proof.Gen.ReferenceIdeal.Run
import proofs.«100436_j44839458570700_2_alg».proof.Proof.Layer

set_option maxRecDepth 16384

noncomputable section

namespace Cert.ReferenceIdeal.Net

open Cert.ReferenceIdeal Cert.ReferenceIdeal.Gen Cert.ReferenceIdeal.Value Cert.Sage
open Idealize.ShloMosaic Idealize.ShloMosaic.ValueIdx Idealize.ShloMosaic.TcCoe Idealize.SL.Sem

/-- The edge list's source row and destination row, flattened. -/
abbrev srcT (e : IVec S2x320000 32) : IVec S320000 32 :=
  shapeCast _ (extractStridedSlice S1x320000 ![0, 0] e slices_S2x320000_S1x320000_0_0) shapeCasts_S1x320000_S320000
abbrev dstT (e : IVec S2x320000 32) : IVec S320000 32 :=
  shapeCast _ (extractStridedSlice S1x320000 ![1, 0] e slices_S2x320000_S1x320000_1_0) shapeCasts_S1x320000_S320000

/-- A flat index row as one index vector per edge. -/
abbrev idxOf (v : IVec S320000 32) : IVec S320000x1 32 := broadcastInDim S320000x1 ![0] bcast_S320000_S320000x1_0 v

/-- A negative index counted from the end. -/
abbrev wrap (s : IVec S320000 32) : IVec S320000 32 :=
  select (cmpi .slt s (broadcastInDim S320000 ![] bcast_S_S320000 (constantI S_ 32 0#32)))
    (addi s (broadcastInDim S320000 ![] bcast_S_S320000 (constantI S_ 32 20000#32))) s

/-- The summed neighbour rows. -/
abbrev aggOp256 (dst src : IVec S320000 32) (h : FVec Ideal S20000x256 .f32) : FVec Ideal S20000x256 .f32 :=
  Host.scatterAdd scatter_S20000x256_S320000x1_S320000x256_1_0_0_1
    (broadcastInDim S20000x256 ![] bcast_S_S20000x256 (constant S_ .f32 0x00000000#32)) (idxOf dst)
    (Host.gather gather_S20000x256_S320000x1_S320000x256_1_0_n_n_0_1_1256 h (idxOf (wrap src)))
abbrev aggOp512 (dst src : IVec S320000 32) (h : FVec Ideal S20000x512 .f32) : FVec Ideal S20000x512 .f32 :=
  Host.scatterAdd scatter_S20000x512_S320000x1_S320000x512_1_0_0_1
    (broadcastInDim S20000x512 ![] bcast_S_S20000x512 (constant S_ .f32 0x00000000#32)) (idxOf dst)
    (Host.gather gather_S20000x512_S320000x1_S320000x512_1_0_n_n_0_1_1512 h (idxOf (wrap src)))

/-- The in-degree of every node, clamped below by 1. -/
abbrev cntMax (dst : IVec S320000 32) : FVec Ideal S20000 .f32 :=
  maximumf (Host.scatterAdd scatter_S20000_S320000x1_S320000_n_0_0_1
      (broadcastInDim S20000 ![] bcast_S_S20000 (constant S_ .f32 0x00000000#32)) (idxOf dst)
      (broadcastInDim S320000 ![] bcast_S_S320000 (constant S_ .f32 0x3F800000#32)))
    (broadcastInDim S20000 ![] bcast_S_S20000 (constant S_ .f32 0x3F800000#32))

/-- The first layer (256 → 512 features). -/
def L1 (e : IVec S2x320000 32) (x : FVec Ideal S20000x256 .f32) (wl : FVec Ideal S256x512 .f32) (bl : FVec Ideal S512 .f32)
    (wr : FVec Ideal S256x512 .f32) : FVec Ideal S20000x512 .f32 :=
  rSage dot_S20000x256_S256x512_S20000x512_1_0_0_1_n_n bcast_S20000_S20000x1_0 bcast_S20000x1_S20000x256_0_1 bcast_S512_S1x512_1
    bcast_S1x512_S20000x512_0_1 bcast_S_S20000x512 (aggOp256 (dstT e) (srcT e) x) (cntMax (dstT e)) x wl bl wr
/-- The second layer (512 → 512). -/
def L2 (e : IVec S2x320000 32) (h : FVec Ideal S20000x512 .f32) (wl : FVec Ideal S512x512 .f32) (bl : FVec Ideal S512 .f32)
    (wr : FVec Ideal S512x512 .f32) : FVec Ideal S20000x512 .f32 :=
  rSage dot_S20000x512_S512x512_S20000x512_1_0_0_1_n_n bcast_S20000_S20000x1_0 bcast_S20000x1_S20000x512_0_1 bcast_S512_S1x512_1
    bcast_S1x512_S20000x512_0_1 bcast_S_S20000x512 (aggOp512 (dstT e) (srcT e) h) (cntMax (dstT e)) h wl bl wr
/-- The third layer (512 → 1024). -/
def L3 (e : IVec S2x320000 32) (h : FVec Ideal S20000x512 .f32) (wl : FVec Ideal S512x1024 .f32) (bl : FVec Ideal S1024 .f32)
    (wr : FVec Ideal S512x1024 .f32) : FVec Ideal S20000x1024 .f32 :=
  rSage dot_S20000x512_S512x1024_S20000x1024_1_0_0_1_n_n bcast_S20000_S20000x1_0 bcast_S20000x1_S20000x512_0_1 bcast_S1024_S1x1024_1
    bcast_S1x1024_S20000x1024_0_1 bcast_S_S20000x1024 (aggOp512 (dstT e) (srcT e) h) (cntMax (dstT e)) h wl bl wr
/-- The final linear layer (1024 → 512). -/
def LD (h : FVec Ideal S20000x1024 .f32) (w : FVec Ideal S1024x512 .f32) (b : FVec Ideal S512 .f32) : FVec Ideal S20000x512 .f32 :=
  rDense dot_S20000x1024_S1024x512_S20000x512_1_0_0_1_n_n bcast_S512_S1x512_1 bcast_S1x512_S20000x512_0_1 h w b

variable (m : (ℓ : Loc nD τ sig) → Buf (Elt Ideal) ℓ) (c : Dev nD)

/-- The run's result term is the four layers composed on the arguments. -/
theorem res_eq : res_main_v85 (F := Ideal) m c
    = LD (L3 (m ((c.tc : Thread nD τ).loc main_arg1)) (L2 (m ((c.tc : Thread nD τ).loc main_arg1)) (L1 (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12)) := by
  unfold res_main_v85 LD L3 L2 L1 rDense rSage
  rfl

end Cert.ReferenceIdeal.Net

end
-- ==== Proof.LayerEq.lean ====
/-
  The two programs' layers as whole arrays: equal on finite data, and finite again.

  * `kSage_eq_rSage`: the blockwise layer's whole-array function (three-pass products, mean = sum · (1 / c)) is the
    whole-array program's layer (one product each, mean = sum / c) when the summed neighbour rows, the features and
    the weights are finite and the clamped count c is nowhere 0 — entry by entry `entry_eq`.
  * `rSage_real`: that layer's output is finite (finite bias too), so the next layer's hypotheses hold again.
  * `kDense_eq_rDense`: the same for the final linear layer.
  * `scatterAdd_real`: a scatter-add of finite updates into a finite operand is finite — at the exact values it is the
    operand's entry plus the sum of the updates landing there —, and a gather only re-reads entries of its operand:
    the summed neighbour rows of finite features are finite whatever the edge list holds.
  * `clamped_ne_zero`: max(x, 1) is not 0.
-/
import Idealize.ShloMosaic.PureOps.Ideal.Laws
import Idealize.ShloMosaic.Lib.ValueIdx
import proofs.«100436_j44839458570700_2_alg».proof.Proof.Layer

noncomputable section

namespace Cert.Sage

open Idealize.ShloMosaic Idealize.ShloMosaic.ValueIdx
open scoped BigOperators

variable {N d e : Nat}

/-- Every entry of an array is a real number. -/
def AllReal {s : Shape} (v : s.Idx → EReal) : Prop := ∀ i, IsReal (v i)

theorem kSage_eq_rSage (D : DotDims (Mat N d) (Mat d e) (Mat N e)) (hD : D = DotDims.plain N d e) (he : e ≠ 1)
    (g1 : (Vc N).BroadcastsInDim (Mat N 1) (![0] : Fin 1 → Fin 2))
    (g2 : (Mat N 1).BroadcastsInDim (Mat N d) (![0, 1] : Fin 2 → Fin 2))
    (g3 : (Vc e).BroadcastsInDim (Mat 1 e) (![1] : Fin 1 → Fin 2))
    (g4 : (Mat 1 e).BroadcastsInDim (Mat N e) (![0, 1] : Fin 2 → Fin 2))
    (g5 : Sc.BroadcastsInDim (Mat N e) (![] : Fin 0 → Fin 2))
    (z : EReal) (agg : FVec Ideal (Mat N d) .f32) (inv : FVec Ideal (Mat N 1) .f32) (cm : FVec Ideal (Vc N) .f32)
    (h : FVec Ideal (Mat N d) .f32) (Wl Wr : FVec Ideal (Mat d e) .f32) (b : FVec Ideal (Mat 1 e) .f32) (bl : FVec Ideal (Vc e) .f32)
    (hz : z = Ideal.ofBits .f32 0x00000000#32)
    (hinv : ∀ r : Fin N, inv (ix2 r 0) = Ideal.div 1 (cm (ix1 r))) (hcm : ∀ r : Fin N, cm (ix1 r) ≠ 0)
    (hb : ∀ j : Fin e, b (ix2 0 j) = bl (ix1 j))
    (hagg : AllReal agg) (hh : AllReal h) (hWl : AllReal Wl) (hWr : AllReal Wr) :
    kSage z agg inv h Wl Wr b = rSage D g1 g2 g3 g4 g5 agg cm h Wl bl Wr := by
  funext i
  obtain ⟨r, j, rfl⟩ : ∃ (r : Fin N) (j : Fin e), i = ix2 r j := ⟨i 0, i 1, eq_ix2 i⟩
  rw [rSage_apply D hD he]
  show max (kEntry (fun c => agg (ix2 r c)) (inv (ix2 r 0)) (fun c => h (ix2 r c)) (fun c => Wl (ix2 c j))
    (fun c => Wr (ix2 c j)) (b (ix2 0 j))) z = _
  rw [hinv r, hb j, hz, entry_eq _ _ _ _ _ _ (hcm r) (fun c => hagg _) (fun c => hh _) (fun c => hWl _) (fun c => hWr _)]

theorem isReal_zero_bits : IsReal (Ideal.ofBits .f32 0x00000000#32) := by
  rw [Ideal.ofBits_zero_f32]; exact IsReal.zero

theorem rSage_real (D : DotDims (Mat N d) (Mat d e) (Mat N e)) (hD : D = DotDims.plain N d e) (he : e ≠ 1)
    (g1 : (Vc N).BroadcastsInDim (Mat N 1) (![0] : Fin 1 → Fin 2))
    (g2 : (Mat N 1).BroadcastsInDim (Mat N d) (![0, 1] : Fin 2 → Fin 2))
    (g3 : (Vc e).BroadcastsInDim (Mat 1 e) (![1] : Fin 1 → Fin 2))
    (g4 : (Mat 1 e).BroadcastsInDim (Mat N e) (![0, 1] : Fin 2 → Fin 2))
    (g5 : Sc.BroadcastsInDim (Mat N e) (![] : Fin 0 → Fin 2))
    (agg : FVec Ideal (Mat N d) .f32) (cm : FVec Ideal (Vc N) .f32)
    (h : FVec Ideal (Mat N d) .f32) (Wl : FVec Ideal (Mat d e) .f32) (bl : FVec Ideal (Vc e) .f32) (Wr : FVec Ideal (Mat d e) .f32)
    (hcm : ∀ r : Fin N, cm (ix1 r) ≠ 0)
    (hagg : AllReal agg) (hh : AllReal h) (hWl : AllReal Wl) (hWr : AllReal Wr) (hbl : AllReal bl) :
    AllReal (rSage D g1 g2 g3 g4 g5 agg cm h Wl bl Wr) := by
  intro i
  obtain ⟨r, j, rfl⟩ : ∃ (r : Fin N) (j : Fin e), i = ix2 r j := ⟨i 0, i 1, eq_ix2 i⟩
  rw [rSage_apply D hD he]
  exact (rEntry_real _ _ _ _ _ _ (hcm r) (fun c => hagg _) (fun c => hh _) (fun c => hWl _) (fun c => hWr _) (hbl _)).max
    isReal_zero_bits

theorem kDense_eq_rDense (D : DotDims (Mat N d) (Mat d e) (Mat N e)) (hD : D = DotDims.plain N d e) (he : e ≠ 1)
    (g3 : (Vc e).BroadcastsInDim (Mat 1 e) (![1] : Fin 1 → Fin 2))
    (g4 : (Mat 1 e).BroadcastsInDim (Mat N e) (![0, 1] : Fin 2 → Fin 2))
    (A : FVec Ideal (Mat N d) .f32) (W : FVec Ideal (Mat d e) .f32) (b : FVec Ideal (Mat 1 e) .f32) (bl : FVec Ideal (Vc e) .f32)
    (hb : ∀ j : Fin e, b (ix2 0 j) = bl (ix1 j)) (hA : AllReal A) (hW : AllReal W) :
    kDense A W b = rDense D g3 g4 A W bl := by
  funext i
  obtain ⟨r, j, rfl⟩ : ∃ (r : Fin N) (j : Fin e), i = ix2 r j := ⟨i 0, i 1, eq_ix2 i⟩
  rw [rDense_apply D hD he]
  show dot3 (fun c => A (ix2 r c)) (fun c => W (ix2 c j)) + b (ix2 0 j) = _
  rw [dot3_eq _ _ (fun c => hA _) (fun c => hW _), hb j]

/-- A scatter-add of finite updates into a finite operand is finite, whatever the indices. -/
theorem scatterAdd_real {s si su : Shape} {w : Nat} (ds : ScatterDims s si su) (x : FVec Ideal s .f32) (idx : IVec si w)
    (upd : FVec Ideal su .f32) (hx : AllReal x) (hu : AllReal upd) : AllReal (Host.scatterAdd ds x idx upd) := by
  intro i
  show IsReal (Ideal.hostScatterAdd ds x idx upd i)
  unfold Ideal.hostScatterAdd
  exact (hx i).add (IsReal.sum _ _ fun j => hu j)

/-- A gather re-reads entries of its operand. -/
theorem gather_real {s si t : Shape} {w : Nat} (dg : GatherDims s si t) (x : FVec Ideal s .f32) (idx : IVec si w)
    (hx : AllReal x) : AllReal (Host.gather dg x idx) := fun j => hx _

/-- The all-zeros array is finite. -/
theorem zeros_real {t : Shape} (g : Sc.BroadcastsInDim t (![] : Fin 0 → Fin t.rank)) :
    AllReal (broadcastInDim t ![] g (constant (F := Ideal) Sc .f32 0x00000000#32)) := by
  intro i
  rw [bcast_scalar]
  exact isReal_zero_bits

/-- The pattern 0x3F800000 is 1. -/
theorem one_bits : Ideal.ofBits .f32 0x3F800000#32 = (1 : EReal) := by
  simp [Ideal.ofBits, Ideal.ieee, -EReal.coe_mul]; norm_num

/-- A count clamped below by 1 is not 0. -/
theorem clamped_ne_zero (x : EReal) : max x (Ideal.ofBits .f32 0x3F800000#32) ≠ 0 := by
  rw [one_bits]
  exact ne_of_gt (lt_of_lt_of_le zero_lt_one (le_max_right x 1))

end Cert.Sage

end
-- ==== Proof.Bridge.lean ====
/-
  The two programs compute one function of finite arguments.

  Layer by layer: on finite features and weights the blockwise layer's whole-array function is the whole-array
  program's layer (LayerEq.lean), the summed neighbour rows being finite because a scatter-add of gathered finite rows
  is, and the clamped in-degree being at least 1; each layer's output is finite again, which feeds the next layer.
  The per-node factor of the blockwise program, 1 / max(count, 1) kept as a column, is read here at a row as the
  quotient of 1 by the whole-array program's own clamped count: the two programs spell that count with the same
  operations.
-/
import proofs.«100436_j44839458570700_2_alg».proof.Proof.KChain
import proofs.«100436_j44839458570700_2_alg».proof.Proof.RNet
import proofs.«100436_j44839458570700_2_alg».proof.Proof.LayerEq

set_option maxRecDepth 16384

noncomputable section

namespace Cert.Bridge

open Cert.Sage Idealize.ShloMosaic Idealize.ShloMosaic.ValueIdx

/-- The whole-array quotient read at an index. -/
theorem hostDivf_at {s : Shape} (a b : FVec Ideal s .f32) (i : s.Idx) : Host.divf a b i = Ideal.div (a i) (b i) := rfl

/-- The two programs spell the clamped in-degree with the same operations. -/
theorem cnt_same (e : IVec Cert.KernelIdeal.S2x320000 32) :
    Cert.KernelIdeal.Chain.cntMax (Cert.KernelIdeal.Chain.dstT e) = Cert.ReferenceIdeal.Net.cntMax (Cert.ReferenceIdeal.Net.dstT e) := rfl

/-- The clamped in-degree is nowhere 0. -/
theorem cnt_ne_zero (e : IVec Cert.KernelIdeal.S2x320000 32) (r : Fin 20000) :
    Cert.ReferenceIdeal.Net.cntMax (Cert.ReferenceIdeal.Net.dstT e) (ix1 r) ≠ 0 := by
  unfold Cert.ReferenceIdeal.Net.cntMax
  rw [maximumf_apply, bcast_scalar, constant_apply]
  exact clamped_ne_zero _

/-- The blockwise program's per-node factor at row r is 1 over the clamped in-degree of r. -/
theorem inv_at (e : IVec Cert.KernelIdeal.S2x320000 32) (r : Fin 20000) :
    Cert.KernelIdeal.Chain.invOp (Cert.KernelIdeal.Chain.dstT e) (ix2 r 0) = Ideal.div 1 (Cert.ReferenceIdeal.Net.cntMax (Cert.ReferenceIdeal.Net.dstT e) (ix1 r)) := by
  unfold Cert.KernelIdeal.Chain.invOp
  rw [Idealize.ShloMosaic.Keepdims.shapeCast_a_a1_apply, hostDivf_at, bcast_scalar, constant_apply, one_bits]
  exact congrArg (Ideal.div 1) (congrFun (cnt_same e) (ix1 r))

/-- Layer 1: the two programs' layers agree on finite data, and the result is finite. -/
theorem layer1 (e : IVec Cert.KernelIdeal.S2x320000 32) (x : FVec Ideal Cert.KernelIdeal.S20000x256 .f32)
    (wl : FVec Ideal Cert.KernelIdeal.S256x512 .f32) (bl : FVec Ideal Cert.KernelIdeal.S512 .f32) (wr : FVec Ideal Cert.KernelIdeal.S256x512 .f32)
    (hx : AllReal x) (hwl : AllReal wl) (hbl : AllReal bl) (hwr : AllReal wr) :
    Cert.KernelIdeal.Chain.L1 e x wl bl wr = Cert.ReferenceIdeal.Net.L1 e x wl bl wr ∧ AllReal (Cert.ReferenceIdeal.Net.L1 e x wl bl wr) := by
  have hagg : AllReal (Cert.ReferenceIdeal.Net.aggOp256 (Cert.ReferenceIdeal.Net.dstT e) (Cert.ReferenceIdeal.Net.srcT e) x) :=
    scatterAdd_real _ _ _ _ (zeros_real _) (gather_real _ _ _ hx)
  have hcm : ∀ r : Fin 20000, Cert.ReferenceIdeal.Net.cntMax (Cert.ReferenceIdeal.Net.dstT e) (ix1 r) ≠ 0 := cnt_ne_zero e
  refine ⟨?_, rSage_real Cert.ReferenceIdeal.dot_S20000x256_S256x512_S20000x512_1_0_0_1_n_n rfl (by decide) _ _ _ _ _ _ _ _ _ _ _ hcm hagg hx hwl hwr hbl⟩
  unfold Cert.KernelIdeal.Chain.L1 Cert.ReferenceIdeal.Net.L1
  have hA : Cert.KernelIdeal.Chain.aggOp256 (Cert.KernelIdeal.Chain.dstT e) (Cert.KernelIdeal.Chain.srcT e) x = Cert.ReferenceIdeal.Net.aggOp256 (Cert.ReferenceIdeal.Net.dstT e) (Cert.ReferenceIdeal.Net.srcT e) x := rfl
  rw [hA]
  exact kSage_eq_rSage Cert.ReferenceIdeal.dot_S20000x256_S256x512_S20000x512_1_0_0_1_n_n rfl (by decide) _ _ _ _ _ _ _ (Cert.KernelIdeal.Chain.invOp (Cert.KernelIdeal.Chain.dstT e)) (Cert.ReferenceIdeal.Net.cntMax (Cert.ReferenceIdeal.Net.dstT e)) x wl wr
    (Cert.KernelIdeal.Chain.biasRow512 bl) bl rfl (inv_at e) hcm (fun j => Cert.RowVector.shapeCast_row bl _ j) hagg hx hwl hwr

/-- Layer 2: the two programs' layers agree on finite data, and the result is finite. -/
theorem layer2 (e : IVec Cert.KernelIdeal.S2x320000 32) (x : FVec Ideal Cert.KernelIdeal.S20000x512 .f32)
    (wl : FVec Ideal Cert.KernelIdeal.S512x512 .f32) (bl : FVec Ideal Cert.KernelIdeal.S512 .f32) (wr : FVec Ideal Cert.KernelIdeal.S512x512 .f32)
    (hx : AllReal x) (hwl : AllReal wl) (hbl : AllReal bl) (hwr : AllReal wr) :
    Cert.KernelIdeal.Chain.L2 e x wl bl wr = Cert.ReferenceIdeal.Net.L2 e x wl bl wr ∧ AllReal (Cert.ReferenceIdeal.Net.L2 e x wl bl wr) := by
  have hagg : AllReal (Cert.ReferenceIdeal.Net.aggOp512 (Cert.ReferenceIdeal.Net.dstT e) (Cert.ReferenceIdeal.Net.srcT e) x) :=
    scatterAdd_real _ _ _ _ (zeros_real _) (gather_real _ _ _ hx)
  have hcm : ∀ r : Fin 20000, Cert.ReferenceIdeal.Net.cntMax (Cert.ReferenceIdeal.Net.dstT e) (ix1 r) ≠ 0 := cnt_ne_zero e
  refine ⟨?_, rSage_real Cert.ReferenceIdeal.dot_S20000x512_S512x512_S20000x512_1_0_0_1_n_n rfl (by decide) _ _ _ _ _ _ _ _ _ _ _ hcm hagg hx hwl hwr hbl⟩
  unfold Cert.KernelIdeal.Chain.L2 Cert.ReferenceIdeal.Net.L2
  have hA : Cert.KernelIdeal.Chain.aggOp512 (Cert.KernelIdeal.Chain.dstT e) (Cert.KernelIdeal.Chain.srcT e) x = Cert.ReferenceIdeal.Net.aggOp512 (Cert.ReferenceIdeal.Net.dstT e) (Cert.ReferenceIdeal.Net.srcT e) x := rfl
  rw [hA]
  exact kSage_eq_rSage Cert.ReferenceIdeal.dot_S20000x512_S512x512_S20000x512_1_0_0_1_n_n rfl (by decide) _ _ _ _ _ _ _ (Cert.KernelIdeal.Chain.invOp (Cert.KernelIdeal.Chain.dstT e)) (Cert.ReferenceIdeal.Net.cntMax (Cert.ReferenceIdeal.Net.dstT e)) x wl wr
    (Cert.KernelIdeal.Chain.biasRow512 bl) bl rfl (inv_at e) hcm (fun j => Cert.RowVector.shapeCast_row bl _ j) hagg hx hwl hwr

/-- Layer 3: the two programs' layers agree on finite data, and the result is finite. -/
theorem layer3 (e : IVec Cert.KernelIdeal.S2x320000 32) (x : FVec Ideal Cert.KernelIdeal.S20000x512 .f32)
    (wl : FVec Ideal Cert.KernelIdeal.S512x1024 .f32) (bl : FVec Ideal Cert.KernelIdeal.S1024 .f32) (wr : FVec Ideal Cert.KernelIdeal.S512x1024 .f32)
    (hx : AllReal x) (hwl : AllReal wl) (hbl : AllReal bl) (hwr : AllReal wr) :
    Cert.KernelIdeal.Chain.L3 e x wl bl wr = Cert.ReferenceIdeal.Net.L3 e x wl bl wr ∧ AllReal (Cert.ReferenceIdeal.Net.L3 e x wl bl wr) := by
  have hagg : AllReal (Cert.ReferenceIdeal.Net.aggOp512 (Cert.ReferenceIdeal.Net.dstT e) (Cert.ReferenceIdeal.Net.srcT e) x) :=
    scatterAdd_real _ _ _ _ (zeros_real _) (gather_real _ _ _ hx)
  have hcm : ∀ r : Fin 20000, Cert.ReferenceIdeal.Net.cntMax (Cert.ReferenceIdeal.Net.dstT e) (ix1 r) ≠ 0 := cnt_ne_zero e
  refine ⟨?_, rSage_real Cert.ReferenceIdeal.dot_S20000x512_S512x1024_S20000x1024_1_0_0_1_n_n rfl (by decide) _ _ _ _ _ _ _ _ _ _ _ hcm hagg hx hwl hwr hbl⟩
  unfold Cert.KernelIdeal.Chain.L3 Cert.ReferenceIdeal.Net.L3
  have hA : Cert.KernelIdeal.Chain.aggOp512 (Cert.KernelIdeal.Chain.dstT e) (Cert.KernelIdeal.Chain.srcT e) x = Cert.ReferenceIdeal.Net.aggOp512 (Cert.ReferenceIdeal.Net.dstT e) (Cert.ReferenceIdeal.Net.srcT e) x := rfl
  rw [hA]
  exact kSage_eq_rSage Cert.ReferenceIdeal.dot_S20000x512_S512x1024_S20000x1024_1_0_0_1_n_n rfl (by decide) _ _ _ _ _ _ _ (Cert.KernelIdeal.Chain.invOp (Cert.KernelIdeal.Chain.dstT e)) (Cert.ReferenceIdeal.Net.cntMax (Cert.ReferenceIdeal.Net.dstT e)) x wl wr
    (Cert.KernelIdeal.Chain.biasRow1024 bl) bl rfl (inv_at e) hcm (fun j => Cert.RowVector.shapeCast_row bl _ j) hagg hx hwl hwr

/-- The final linear layer: the two programs agree on finite data. -/
theorem layerD (h : FVec Ideal Cert.KernelIdeal.S20000x1024 .f32) (w : FVec Ideal Cert.KernelIdeal.S1024x512 .f32)
    (b : FVec Ideal Cert.KernelIdeal.S512 .f32) (hh : AllReal h) (hw : AllReal w) :
    Cert.KernelIdeal.Chain.LD h w b = Cert.ReferenceIdeal.Net.LD h w b := by
  unfold Cert.KernelIdeal.Chain.LD Cert.ReferenceIdeal.Net.LD
  exact kDense_eq_rDense Cert.ReferenceIdeal.dot_S20000x1024_S1024x512_S20000x512_1_0_0_1_n_n rfl (by decide) _ _ h w (Cert.KernelIdeal.Chain.biasRow512 b) b (fun j => Cert.RowVector.shapeCast_row b _ j) hh hw

/-- The four layers composed: one function of finite arguments. -/
theorem net_eq (e : IVec Cert.KernelIdeal.S2x320000 32) (x : FVec Ideal Cert.KernelIdeal.S20000x256 .f32)
    (wl1 : FVec Ideal Cert.KernelIdeal.S256x512 .f32) (bl1 : FVec Ideal Cert.KernelIdeal.S512 .f32) (wr1 : FVec Ideal Cert.KernelIdeal.S256x512 .f32)
    (wl2 : FVec Ideal Cert.KernelIdeal.S512x512 .f32) (bl2 : FVec Ideal Cert.KernelIdeal.S512 .f32) (wr2 : FVec Ideal Cert.KernelIdeal.S512x512 .f32)
    (wl3 : FVec Ideal Cert.KernelIdeal.S512x1024 .f32) (bl3 : FVec Ideal Cert.KernelIdeal.S1024 .f32) (wr3 : FVec Ideal Cert.KernelIdeal.S512x1024 .f32)
    (wfc : FVec Ideal Cert.KernelIdeal.S1024x512 .f32) (bfc : FVec Ideal Cert.KernelIdeal.S512 .f32)
    (hx : AllReal x) (h2 : AllReal wl1) (h3 : AllReal bl1) (h4 : AllReal wr1) (h5 : AllReal wl2) (h6 : AllReal bl2) (h7 : AllReal wr2)
    (h8 : AllReal wl3) (h9 : AllReal bl3) (h10 : AllReal wr3) (h11 : AllReal wfc) :
    Cert.KernelIdeal.Chain.LD (Cert.KernelIdeal.Chain.L3 e (Cert.KernelIdeal.Chain.L2 e (Cert.KernelIdeal.Chain.L1 e x wl1 bl1 wr1) wl2 bl2 wr2) wl3 bl3 wr3) wfc bfc
      = Cert.ReferenceIdeal.Net.LD (Cert.ReferenceIdeal.Net.L3 e (Cert.ReferenceIdeal.Net.L2 e (Cert.ReferenceIdeal.Net.L1 e x wl1 bl1 wr1) wl2 bl2 wr2) wl3 bl3 wr3) wfc bfc := by
  obtain ⟨e1, r1⟩ := layer1 e x wl1 bl1 wr1 hx h2 h3 h4
  rw [e1]
  obtain ⟨e2, r2⟩ := layer2 e (Cert.ReferenceIdeal.Net.L1 e x wl1 bl1 wr1) wl2 bl2 wr2 r1 h5 h6 h7
  rw [e2]
  obtain ⟨e3, r3⟩ := layer3 e (Cert.ReferenceIdeal.Net.L2 e (Cert.ReferenceIdeal.Net.L1 e x wl1 bl1 wr1) wl2 bl2 wr2) wl3 bl3 wr3 r2 h8 h9 h10
  rw [e3]
  exact layerD _ wfc bfc r3 h11

end Cert.Bridge

end
-- ==== Proof.Finite.lean ====
/-
  The precondition, read: every float argument's entries are finite.

  The precondition is the conjunction, over the twelve float arguments, of "every entry x has |x| < +∞",
  each an all-reduction of a comparison against the pattern of +∞.  At the exact values |x| = max x (−x),
  which is below +∞ exactly when x is a real number.
-/
import proofs.«100436_j44839458570700_2_alg».proof.Pre_finite_inputs
import Idealize.ShloMosaic.PureOps.Ideal
import Idealize.ShloMosaic.Lib.ReduceAll
import Idealize.ShloMosaic.Lib.Affine
import Idealize.ShloMosaic.Lib.ValueIdx
import proofs.«100436_j44839458570700_2_alg».proof.Proof.Algebra

noncomputable section

namespace Cert.Pre_finite_inputs.Finite

open Cert.Pre_finite_inputs Idealize.ShloMosaic Idealize.ShloMosaic.ValueIdx Cert.Sage

instance : Subsingleton S_.Idx := ⟨fun a b => funext fun d => d.elim0⟩

/-- The pattern 0x7F800000 is +∞. -/
theorem inf_eq : Ideal.ofBits .f32 0x7F800000#32 = (⊤ : EReal) := by
  simp [Ideal.ofBits, Ideal.ieee]

/-- An extended real whose absolute value is below +∞ is a real. -/
theorem real_of_abs_lt (x : EReal)
    (h : FloatOps.cmpf (F := Ideal) .olt (FloatOps.hostAbsf x) (Ideal.ofBits .f32 0x7F800000#32) = 1#1) : IsReal x := by
  rw [inf_eq] at h
  induction x using EReal.rec with
  | bot =>
    change Ideal.cmp .olt (max (⊥ : EReal) (-⊥)) ⊤ = 1#1 at h
    simp [Ideal.cmp] at h
  | coe r => exact ⟨r, rfl⟩
  | top =>
    change Ideal.cmp .olt (max (⊤ : EReal) (-⊤)) ⊤ = 1#1 at h
    simp [Ideal.cmp] at h

/-- One all-reduction of |x| < +∞ being 1 makes every entry of x finite. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : IsReal (x i) :=
  real_of_abs_lt (x i) (Host.reduce_andi_all _ _ hr hu ix0 e i)

/-- The precondition makes every float argument finite. -/
theorem finite_of_pre [Cert.Pre_finite_inputs.Facts] (a0 : FVec Ideal S20000x256 .f32) (a1 : IVec S2x320000 32) (a2 : FVec Ideal S256x512 .f32) (a3 : FVec Ideal S512 .f32) (a4 : FVec Ideal S256x512 .f32) (a5 : FVec Ideal S512x512 .f32) (a6 : FVec Ideal S512 .f32) (a7 : FVec Ideal S512x512 .f32) (a8 : FVec Ideal S512x1024 .f32) (a9 : FVec Ideal S1024 .f32) (a10 : FVec Ideal S512x1024 .f32) (a11 : FVec Ideal S1024x512 .f32) (a12 : FVec Ideal S512 .f32)
    (hpre : fn (F := Ideal) a0 a1 a2 a3 a4 a5 a6 a7 a8 a9 a10 a11 a12 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) := by
  have h := congrFun hpre ix0
  dsimp only [fn, fn_part1, fn_part2, fn_part3] at h
  obtain ⟨h, h12⟩ := IntOp.andi_eq_one.mp h
  obtain ⟨h, h11⟩ := IntOp.andi_eq_one.mp h
  obtain ⟨h, h10⟩ := IntOp.andi_eq_one.mp h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h0, h2⟩ := IntOp.andi_eq_one.mp h
  exact ⟨real_of_all a0 _ _ _ h0, real_of_all a2 _ _ _ h2, real_of_all a3 _ _ _ h3, real_of_all a4 _ _ _ h4,
    real_of_all a5 _ _ _ h5, real_of_all a6 _ _ _ h6, real_of_all a7 _ _ _ h7, real_of_all a8 _ _ _ h8,
    real_of_all a9 _ _ _ h9, real_of_all a10 _ _ _ h10, real_of_all a11 _ _ _ h11, real_of_all a12 _ _ _ h12⟩

end Cert.Pre_finite_inputs.Finite

end
-- ==== Proof.lean ====
/-
  The certificate: a three-layer mean-aggregation graph network followed by a linear layer, computed blockwise
  (four block pipelines over 1000-row blocks, every matrix product in three passes over split factors, the
  neighbour mean as sum · (1 / max(count, 1))) and as whole arrays (one product per matrix, the mean as
  sum / max(count, 1)), are the same function of finite arguments at the exact (extended-real) values.

  * Frames: the blockwise programs' generated frames; the whole-array program's frame is its generated run with the
    result dropped.
  * `preserves`: each storage round trip the exact reading removed is the identity (fourteen sites).
  * `algebraic`: the blockwise program ends with its result at the four layers composed on its arguments (KRun.lean,
    KChain.lean); the whole-array program's result term is the four whole-array layers composed (RNet.lean); on
    finite arguments (Finite.lean, from the precondition) the two compositions agree layer by layer (Bridge.lean).
-/
import proofs.«100436_j44839458570700_2_alg».proof.Defs
import proofs.«100436_j44839458570700_2_alg».proof.Proof.Gen.Kernel
import proofs.«100436_j44839458570700_2_alg».proof.Proof.Gen.Kernel.Skeleton
import proofs.«100436_j44839458570700_2_alg».proof.Proof.Patched.KernelLaunch
import proofs.«100436_j44839458570700_2_alg».proof.Proof.Gen.Kernel.Points
import proofs.«100436_j44839458570700_2_alg».proof.Proof.Patched.KernelFrame
import proofs.«100436_j44839458570700_2_alg».proof.Proof.Gen.KernelIdeal
import proofs.«100436_j44839458570700_2_alg».proof.Proof.Gen.KernelIdeal.Skeleton
import proofs.«100436_j44839458570700_2_alg».proof.Proof.Patched.KernelIdealLaunch
import proofs.«100436_j44839458570700_2_alg».proof.Proof.Gen.KernelIdeal.Points
import proofs.«100436_j44839458570700_2_alg».proof.Proof.Patched.KernelIdealFrame
import proofs.«100436_j44839458570700_2_alg».proof.Proof.Gen.ReferenceIdeal
import proofs.«100436_j44839458570700_2_alg».proof.Proof.Gen.ReferenceIdeal.Run
import proofs.«100436_j44839458570700_2_alg».proof.Proof.Gen.Pre_finite_inputs
import proofs.«100436_j44839458570700_2_alg».proof.Proof.KRun
import proofs.«100436_j44839458570700_2_alg».proof.Proof.KChain
import proofs.«100436_j44839458570700_2_alg».proof.Proof.RNet
import proofs.«100436_j44839458570700_2_alg».proof.Proof.Bridge
import proofs.«100436_j44839458570700_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Every removed round trip through the narrower storage format is the identity at the exact values. -/
theorem preserves : Cert.preserves_Kernel_KernelIdeal :=
  ⟨IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16⟩

/-- Both programs end with equal results: the four layers composed on arguments that agree and are finite. -/
theorem algebraic : Cert.algebraic_KernelIdeal_ReferenceIdeal := by
  intro m ρ m' ρ' hpre hagree
  refine ⟨fun c => Cert.KernelIdeal.Chain.OUT m c, ?_, ?_⟩
  · exact (θ_run Cert.KernelIdeal.defs _ _).mono
      (fun r h c => ⟨(h c).1.trans (Cert.KernelIdeal.Chain.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Net.res_eq]
    obtain ⟨a0, a1, a2, a3, a4, a5, a6, a7, a8, a9, a10, a11, a12⟩ := hagree c
    rw [a0, a1, a2, a3, a4, a5, a6, a7, a8, a9, a10, a11, a12]
    obtain ⟨f0, f2, f3, f4, f5, f6, f7, f8, f9, f10, f11, f12⟩ := Cert.Pre_finite_inputs.Finite.finite_of_pre _ _ _ _ _ _ _ _ _ _ _ _ _ (hpre c)
    exact (Cert.Bridge.net_eq _ _ _ _ _ _ _ _ _ _ _ _ _ f0 f2 f3 f4 f5 f6 f7 f8 f9 f10 f11).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
